-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S40x128 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S40x128 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S160x128 : Shape := ⟨2, ![160, 128]⟩
abbrev S5000x128 : Shape := ⟨2, ![5000, 128]⟩
abbrev S8x128 : Shape := ⟨2, ![8, 128]⟩
abbrev S128x40 : Shape := ⟨2, ![128, 40]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 62
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S40x128, .f32⟩
  | .hbm, ⟨9, _⟩ => ⟨S40, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S100000x128, .f32⟩
  | .hbm, ⟨25, _⟩ => ⟨S600000x1, .i32⟩
  | .hbm, ⟨26, _⟩ => ⟨S100000x128, .f32⟩
  | .hbm, ⟨27, _⟩ => ⟨S128x128, .f32⟩
  | .hbm, ⟨28, _⟩ => ⟨S128x128, .bf16⟩
  | .hbm, ⟨29, _⟩ => ⟨S1x128, .f32⟩
  | .hbm, ⟨30, _⟩ => ⟨S100000x128, .bf16⟩
  | .hbm, ⟨31, _⟩ => ⟨S160x128, .f32⟩
  | .hbm, ⟨32, _⟩ => ⟨S160x128, .f32⟩
  | .hbm, ⟨33, _⟩ => ⟨S_, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128x128, .f32⟩
  | .hbm, ⟨52, _⟩ => ⟨S128x128, .bf16⟩
  | .hbm, ⟨53, _⟩ => ⟨S128x40, .f32⟩
  | .hbm, ⟨54, _⟩ => ⟨S128x40, .bf16⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x40, .f32⟩
  | .hbm, ⟨59, _⟩ => ⟨S1x128, .f32⟩
  | .hbm, ⟨60, _⟩ => ⟨S1x128, .f32⟩
  | .hbm, ⟨61, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S5000x128, .bf16⟩
  | .local _ .vmem, ⟨7, _⟩ => ⟨S5000x128, .bf16⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S5000x128, .bf16⟩
  | .local _ .vmem, ⟨13, _⟩ => ⟨S5000x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S128x40, .bf16⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_cst_1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x40 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x40 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x40 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  packedbf16_S5000x128_S5000x128_0_0 : (Rect.unit (s := S5000x128) ![0, 0] S5000x128.size inb_S5000x128_S5000x128_0_0).PackedRows (EltTy.packing .bf16)
  reducesTo_S160x128_S128_d0 : S160x128.ReducesTo [0] S128
  h_S_ : 0 < S_.numel
  bcast_S_S128 : S_.BroadcastsInDim S128 (![] : Fin 0 → Fin S128.rank)
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S160x128.size a
  hwx0_5 : ∀ i : grid0.Coords, EltTy.bits .f32 = 32 ∨ (Rect.block (s := S160x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S160x128.size a
  hwx0_6 : ∀ i : grid0.Coords, EltTy.bits .f32 = 32 ∨ (Rect.block (s := S160x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x40.size a ≤ S128x40.size a
  hwx1_7 : ∀ i : grid1.Coords, EltTy.bits .bf16 = 32 ∨ (Rect.block (s := S128x40) S128x40.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x40.size a ≤ S1x40.size a
  hwx1_8 : ∀ i : grid1.Coords, EltTy.bits .f32 = 32 ∨ (Rect.block (s := S1x40) S1x40.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x40.size a ≤ S100000x40.size a
  hwx1_9 : ∀ i : grid1.Coords, EltTy.bits .f32 = 32 ∨ (Rect.block (s := S100000x40) S5000x40.size (cc1_transform_9 i) (hinb1_9 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S128x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S1x40.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S5000x40.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S40x128, .f32⟩
  | .hbm, ⟨9, _⟩ => ⟨S40, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S100000x128, .f32⟩
  | .hbm, ⟨25, _⟩ => ⟨S600000x1, .i32⟩
  | .hbm, ⟨26, _⟩ => ⟨S100000x128, .f32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S128x40, .f32⟩
  | .hbm, ⟨78, _⟩ => ⟨S100000x40, .f32⟩
  | .hbm, ⟨79, _⟩ => ⟨S1x40, .f32⟩
  | .hbm, ⟨80, _⟩ => ⟨S100000x40, .f32⟩
  | .hbm, ⟨81, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_call2_cst : Ref sig .tc := ⟨.hbm, 74, rfl⟩
abbrev main_call2_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The mathematics both programs compute, entry by entry over the extended reals.

  A graph layer adds to every node's feature row the sum of its in-neighbours' rows (agg), applies a linear layer
  (lin1), normalises every column by its mean and (biased) variance over all 100000 rows, and runs a small
  multi-layer perceptron row by row (bn, hid, outp; together model).

  The column statistics are written twice. colMean / colVar are the textbook forms: the sum of a column over all rows
  divided by the row count, and the mean of the squared deviations. kMean / kVar are the tiled forms: the rows are cut
  into 20 tiles of 5000, each tile's column sum (and sum of squares) is written to 8 consecutive rows of a 160-row
  array of partial sums, that array is summed over its rows and divided by 8 and then by the row count, and the
  variance is the mean of squares minus the squared mean. On real numbers the two forms agree.
-/
import Idealize.ShloMosaic.PureOps.Ideal
import Idealize.ShloMosaic.Lib.ValueIdx

noncomputable section

open scoped BigOperators

namespace Cert.GinBn

open Idealize.ShloMosaic Idealize.ShloMosaic.ValueIdx

/-- The literal 8.0. -/
abbrev c8 : EReal := Ideal.ofBits .f32 0x41000000#32
/-- The literal 100000.0, the number of rows. -/
abbrev cN : EReal := Ideal.ofBits .f32 0x47C35000#32
/-- The literal the variance is offset by before the reciprocal square root. -/
abbrev eps : EReal := Ideal.ofBits .f32 0x3727C5AC#32

/-- A function of two coordinates as an array of rank 2. -/
def ofFn2 {a b : Nat} (f : Fin a → Fin b → EReal) : (⟨2, ![a, b]⟩ : Shape).Idx → EReal := fun i => f (i 0) (i 1)

theorem ofFn2_ix2 {a b : Nat} (f : Fin a → Fin b → EReal) (r : Fin a) (c : Fin b) : ofFn2 f (ix2 r c) = f r c := rfl

/-- The first linear layer on x + agg: entry (r, j) is the sum over k of (x r k + agg r k) · w1 j k, plus b1 j. -/
def lin1 (x agg : Fin 100000 → Fin 128 → EReal) (w1 : Fin 128 → Fin 128 → EReal) (b1 : Fin 128 → EReal)
    (r : Fin 100000) (j : Fin 128) : EReal :=
  (∑ k : Fin 128, (x r k + agg r k) * w1 j k) + b1 j

/-- A column's mean over all rows. -/
def colMean (h : Fin 100000 → Fin 128 → EReal) (j : Fin 128) : EReal :=
  Ideal.div (∑ r : Fin 100000, h r j) cN

/-- A column's biased variance: the mean of the squared deviations from the column mean. -/
def colVar (h : Fin 100000 → Fin 128 → EReal) (j : Fin 128) : EReal :=
  Ideal.div (∑ r : Fin 100000, (h r j - colMean h j) * (h r j - colMean h j)) cN

/-- Row r' of tile t. -/
def tileRow (t : Fin 20) (r' : Fin 5000) : Fin 100000 := ⟨t.val * 5000 + r'.val, by omega⟩

/-- The tile a row of the 160-row array of partial sums belongs to: 8 consecutive rows per tile. -/
def tileOf (q : Fin 160) : Fin 20 := ⟨q.val / 8, by omega⟩

/-- Row q of the partial sums: the column sum over the rows of q's tile. -/
def partSum (h : Fin 100000 → Fin 128 → EReal) (q : Fin 160) (j : Fin 128) : EReal :=
  ∑ r' : Fin 5000, h (tileRow (tileOf q) r') j

/-- Row q of the partial sums of squares. -/
def partSq (h : Fin 100000 → Fin 128 → EReal) (q : Fin 160) (j : Fin 128) : EReal :=
  ∑ r' : Fin 5000, h (tileRow (tileOf q) r') j * h (tileRow (tileOf q) r') j

/-- The column mean from the partial sums: their sum over the 160 rows, divided by 8 and by the row count. -/
def kMean (h : Fin 100000 → Fin 128 → EReal) (j : Fin 128) : EReal :=
  Ideal.div (Ideal.div (∑ q : Fin 160, partSum h q j) c8) cN

/-- The column variance from the partial sums of squares: the mean of squares minus the squared mean. -/
def kVar (h : Fin 100000 → Fin 128 → EReal) (j : Fin 128) : EReal :=
  Ideal.div (Ideal.div (∑ q : Fin 160, partSq h q j) c8) cN - kMean h j * kMean h j

/-- Normalisation, scale, shift and rectification of entry (r, j). -/
def bn (h : Fin 100000 → Fin 128 → EReal) (mean var gamma beta : Fin 128 → EReal) (r : Fin 100000) (j : Fin 128) : EReal :=
  max ((h r j - mean j) * Ideal.rsqrt (var j + eps) * gamma j + beta j) 0

/-- The hidden layer: a linear layer, rectified twice. -/
def hid (a : Fin 100000 → Fin 128 → EReal) (w2 : Fin 128 → Fin 128 → EReal) (b2 : Fin 128 → EReal)
    (r : Fin 100000) (k : Fin 128) : EReal :=
  max (max ((∑ j : Fin 128, a r j * w2 k j) + b2 k) 0) 0

/-- The output layer. -/
def outp (a : Fin 100000 → Fin 128 → EReal) (wl : Fin 40 → Fin 128 → EReal) (bl : Fin 40 → EReal)
    (r : Fin 100000) (c : Fin 40) : EReal :=
  (∑ k : Fin 128, a r k * wl c k) + bl c

/-- Normalisation followed by the perceptron, from the first layer's output h and the column statistics. -/
def model (h : Fin 100000 → Fin 128 → EReal) (mean var gamma beta : Fin 128 → EReal) (w2 : Fin 128 → Fin 128 → EReal)
    (b2 : Fin 128 → EReal) (wl : Fin 40 → Fin 128 → EReal) (bl : Fin 40 → EReal) (r : Fin 100000) (c : Fin 40) : EReal :=
  outp (hid (bn h mean var gamma beta) w2 b2) wl bl r c

/-- An array of rank 2 as a function of its two coordinates. -/
def mat {a b : Nat} (x : (⟨2, ![a, b]⟩ : Shape).Idx → EReal) : Fin a → Fin b → EReal := fun r k => x (ix2 r k)

/-- An array of rank 1 as a function of its coordinate. -/
def vec {a : Nat} (x : (⟨1, ![a]⟩ : Shape).Idx → EReal) : Fin a → EReal := fun j => x (ix1 j)

/-- The first layer's output from the argument arrays: features x0, aggregated neighbour features agg, weights x2, bias x3. -/
def h1 (x0 agg : (⟨2, ![100000, 128]⟩ : Shape).Idx → EReal) (x2 : (⟨2, ![128, 128]⟩ : Shape).Idx → EReal)
    (x3 : (⟨1, ![128]⟩ : Shape).Idx → EReal) : Fin 100000 → Fin 128 → EReal :=
  lin1 (mat x0) (mat agg) (mat x2) (vec x3)

/-- THE RESULT ARRAY from the argument arrays, given how the column statistics are taken from the first layer's
    output (mean, var: the textbook forms on one side, the tiled forms on the other). -/
def net (mean var : (Fin 100000 → Fin 128 → EReal) → Fin 128 → EReal)
    (x0 agg : (⟨2, ![100000, 128]⟩ : Shape).Idx → EReal) (x2 : (⟨2, ![128, 128]⟩ : Shape).Idx → EReal)
    (x3 x4 x5 : (⟨1, ![128]⟩ : Shape).Idx → EReal) (x6 : (⟨2, ![128, 128]⟩ : Shape).Idx → EReal)
    (x7 : (⟨1, ![128]⟩ : Shape).Idx → EReal) (x8 : (⟨2, ![40, 128]⟩ : Shape).Idx → EReal)
    (x9 : (⟨1, ![40]⟩ : Shape).Idx → EReal) : (⟨2, ![100000, 40]⟩ : Shape).Idx → EReal :=
  ofFn2 (model (h1 x0 agg x2 x3) (mean (h1 x0 agg x2 x3)) (var (h1 x0 agg x2 x3)) (vec x4) (vec x5) (mat x6) (vec x7) (mat x8) (vec x9))

end Cert.GinBn

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.Stats.lean ====
/-
  The tiled column statistics agree with the textbook ones on real numbers.

  A column of 100000 real numbers g is cut into 20 tiles of 5000 consecutive rows. The tiled mean sums, over the 160
  rows q of an array of partial sums, the sum of the tile q / 8; every tile is therefore counted 8 times, and the
  total is divided by 8 and by the row count. Re-indexing the 160 rows as 20 tiles times 8 copies, and the 20 tiles
  of 5000 rows as the 100000 rows, the tiled total is 8 times the plain total (sum_tiles), so the two means agree.

  The tiled variance is the mean of the squares minus the squared mean. With μ the mean and n the row count,
  ∑ (g r − μ)² = ∑ g r² − 2 μ ∑ g r + n μ² = ∑ g r² − n μ², because ∑ g r = n μ; dividing by n gives the mean of the
  squared deviations (var_real).

  Both identities are lifted to the extended reals along the embedding of the reals: division by the real constants
  8 and 100000 is the product with their reciprocals, and sums, differences and products of embedded reals are the
  embedded real sums, differences and products.
-/
import proofs.«148175_j44744969290572_2_alg».proof.Proof.Spec
import proofs.«148175_j44744969290572_2_alg».proof.Proof.LibRealSums

noncomputable section

open scoped BigOperators

namespace Cert.GinBn

open Cert.RealSums Idealize.ShloMosaic

/-- The literal 8.0 denotes the real number 8. -/
theorem c8_eq : c8 = ((8 : ℝ) : EReal) := by
  simp [Ideal.ofBits, Ideal.ieee, -EReal.coe_mul]; norm_num

/-- The literal 100000.0 denotes the real number 100000. -/
theorem cN_eq : cN = ((100000 : ℝ) : EReal) := by
  simp [Ideal.ofBits, Ideal.ieee, -EReal.coe_mul]; norm_num

/-- Division by 8.0 is the product with the real 1/8. -/
theorem div_c8 (x : EReal) : Ideal.div x c8 = x * ((1 / 8 : ℝ) : EReal) := by
  rw [c8_eq]; exact Ideal.div_coe (by norm_num) x

/-- Division by 100000.0 is the product with the real 1/100000. -/
theorem div_cN (x : EReal) : Ideal.div x cN = x * ((1 / 100000 : ℝ) : EReal) := by
  rw [cN_eq]; exact Ideal.div_coe (by norm_num) x

/-! ### The two identities on real numbers -/

/-- Every tile owns 8 of the 160 rows: a sum over the rows of a function of the row's tile is 8 times the sum over
    the tiles. -/
theorem sum_tileOf (F : Fin 20 → ℝ) : ∑ q : Fin 160, F (tileOf q) = 8 * ∑ t : Fin 20, F t := by
  have key : ∀ p : Fin 20 × Fin 8, tileOf ((finProdFinEquiv : Fin 20 × Fin 8 ≃ Fin 160) p) = p.1 := by
    rintro ⟨a, b⟩
    apply Fin.ext
    simp only [tileOf, finProdFinEquiv_apply_val]
    omega
  refine ((finProdFinEquiv : Fin 20 × Fin 8 ≃ Fin 160).sum_comp (fun q => F (tileOf q))).symm.trans ?_
  simp only [key, Fintype.sum_prod_type, Finset.sum_const, Finset.card_univ, Fintype.card_fin, nsmul_eq_mul,
    Finset.mul_sum]
  norm_num

/-- The 20 tiles of 5000 rows are the 100000 rows. -/
theorem sum_tileRow (g : Fin 100000 → ℝ) :
    ∑ t : Fin 20, ∑ r' : Fin 5000, g (tileRow t r') = ∑ r : Fin 100000, g r := by
  refine Eq.trans ?_ ((finProdFinEquiv : Fin 20 × Fin 5000 ≃ Fin 100000).sum_comp g)
  rw [Fintype.sum_prod_type]
  refine Finset.sum_congr rfl fun a _ => Finset.sum_congr rfl fun b _ => ?_
  congr 1
  apply Fin.ext
  simp only [tileRow, finProdFinEquiv_apply_val]
  omega

/-- The total of the 160 partial sums is 8 times the total of the column. -/
theorem sum_tiles (g : Fin 100000 → ℝ) :
    ∑ q : Fin 160, ∑ r' : Fin 5000, g (tileRow (tileOf q) r') = 8 * ∑ r : Fin 100000, g r := by
  rw [sum_tileOf (fun t => ∑ r' : Fin 5000, g (tileRow t r')), sum_tileRow]

/-- The tiled mean of a real column is its mean. -/
theorem mean_real (g : Fin 100000 → ℝ) :
    (∑ q : Fin 160, ∑ r' : Fin 5000, g (tileRow (tileOf q) r')) * (1 / 8) * (1 / 100000)
      = (∑ r : Fin 100000, g r) * (1 / 100000) := by
  rw [sum_tiles]; ring

/-- The mean of the squared deviations from the mean is the mean of the squares minus the squared mean. -/
theorem var_real (g : Fin 100000 → ℝ) (μ : ℝ) (hμ : μ = (∑ r : Fin 100000, g r) * (1 / 100000)) :
    (∑ r : Fin 100000, (g r - μ) * (g r - μ)) * (1 / 100000)
      = (∑ r : Fin 100000, g r * g r) * (1 / 100000) - μ * μ := by
  have hS : ∑ r : Fin 100000, g r = 100000 * μ := by rw [hμ]; ring
  have expand : ∀ r, (g r - μ) * (g r - μ) = g r * g r - 2 * μ * g r + μ * μ := fun r => by ring
  have h1 : ∑ r : Fin 100000, (g r - μ) * (g r - μ)
      = ∑ r : Fin 100000, g r * g r - 2 * μ * ∑ r : Fin 100000, g r + 100000 * (μ * μ) := by
    simp only [expand, Finset.sum_add_distrib, Finset.sum_sub_distrib, ← Finset.mul_sum, Finset.sum_const,
      Finset.card_univ, Fintype.card_fin, nsmul_eq_mul]
    push_cast
    ring
  rw [h1, hS]; ring

/-! ### The statistics of a column of embedded reals -/

section Lift

variable (h : Fin 100000 → Fin 128 → EReal) (j : Fin 128) (g : Fin 100000 → ℝ)

/-- The textbook mean of a column of embedded reals. -/
theorem colMean_coe (hg : ∀ r, h r j = ((g r : ℝ) : EReal)) :
    colMean h j = (((∑ r : Fin 100000, g r) * (1 / 100000) : ℝ) : EReal) := by
  unfold colMean
  rw [div_cN]
  simp only [hg, coe_sum, ← EReal.coe_mul]

/-- The tiled mean of a column of embedded reals. -/
theorem kMean_coe (hg : ∀ r, h r j = ((g r : ℝ) : EReal)) :
    kMean h j
      = (((∑ q : Fin 160, ∑ r' : Fin 5000, g (tileRow (tileOf q) r')) * (1 / 8) * (1 / 100000) : ℝ) : EReal) := by
  unfold kMean partSum
  rw [div_cN, div_c8]
  simp only [hg, coe_sum, ← EReal.coe_mul]

/-- The textbook variance of a column of embedded reals. -/
theorem colVar_coe (hg : ∀ r, h r j = ((g r : ℝ) : EReal)) :
    colVar h j
      = (((∑ r : Fin 100000, (g r - (∑ r : Fin 100000, g r) * (1 / 100000))
            * (g r - (∑ r : Fin 100000, g r) * (1 / 100000))) * (1 / 100000) : ℝ) : EReal) := by
  unfold colVar
  rw [div_cN, colMean_coe h j g hg]
  simp only [hg, ← EReal.coe_sub, ← EReal.coe_mul, coe_sum]

/-- The tiled variance of a column of embedded reals. -/
theorem kVar_coe (hg : ∀ r, h r j = ((g r : ℝ) : EReal)) :
    kVar h j
      = (((∑ q : Fin 160, ∑ r' : Fin 5000, g (tileRow (tileOf q) r') * g (tileRow (tileOf q) r')) * (1 / 8)
            * (1 / 100000)
          - (∑ q : Fin 160, ∑ r' : Fin 5000, g (tileRow (tileOf q) r')) * (1 / 8) * (1 / 100000)
            * ((∑ q : Fin 160, ∑ r' : Fin 5000, g (tileRow (tileOf q) r')) * (1 / 8) * (1 / 100000)) : ℝ) : EReal) := by
  unfold kVar
  rw [kMean_coe h j g hg]
  unfold partSq
  rw [div_cN, div_c8]
  simp only [hg, ← EReal.coe_sub, ← EReal.coe_mul, coe_sum]

end Lift

/-! ### The statements -/

/-- THE TILED MEAN IS THE MEAN, on a real array. -/
theorem kMean_eq (h : Fin 100000 → Fin 128 → EReal) (hr : ∀ r j, IsReal (h r j)) (j : Fin 128) :
    kMean h j = colMean h j := by
  obtain ⟨g, hg⟩ : ∃ g : Fin 100000 → ℝ, ∀ r, h r j = ((g r : ℝ) : EReal) :=
    ⟨fun r => (h r j).toReal, fun r => (hr r j).eq_coe_toReal⟩
  rw [kMean_coe h j g hg, colMean_coe h j g hg, mean_real g]

/-- THE TILED VARIANCE IS THE VARIANCE, on a real array. -/
theorem kVar_eq (h : Fin 100000 → Fin 128 → EReal) (hr : ∀ r j, IsReal (h r j)) (j : Fin 128) :
    kVar h j = colVar h j := by
  obtain ⟨g, hg⟩ : ∃ g : Fin 100000 → ℝ, ∀ r, h r j = ((g r : ℝ) : EReal) :=
    ⟨fun r => (h r j).toReal, fun r => (hr r j).eq_coe_toReal⟩
  rw [kVar_coe h j g hg, colVar_coe h j g hg, var_real g _ rfl, mean_real g, mean_real (fun r => g r * g r)]

/-- THE RESULT ARRAY IS THE SAME under the tiled and the textbook statistics, when the first layer's output is real. -/
theorem net_eq (x0 agg : (⟨2, ![100000, 128]⟩ : Shape).Idx → EReal) (x2 : (⟨2, ![128, 128]⟩ : Shape).Idx → EReal)
    (x3 x4 x5 : (⟨1, ![128]⟩ : Shape).Idx → EReal) (x6 : (⟨2, ![128, 128]⟩ : Shape).Idx → EReal)
    (x7 : (⟨1, ![128]⟩ : Shape).Idx → EReal) (x8 : (⟨2, ![40, 128]⟩ : Shape).Idx → EReal)
    (x9 : (⟨1, ![40]⟩ : Shape).Idx → EReal)
    (hr : ∀ r j, IsReal (h1 x0 agg x2 x3 r j)) :
    net kMean kVar x0 agg x2 x3 x4 x5 x6 x7 x8 x9 = net colMean colVar x0 agg x2 x3 x4 x5 x6 x7 x8 x9 := by
  have e1 : kMean (h1 x0 agg x2 x3) = colMean (h1 x0 agg x2 x3) := funext fun j => kMean_eq _ hr j
  have e2 : kVar (h1 x0 agg x2 x3) = colVar (h1 x0 agg x2 x3) := funext fun j => kVar_eq _ hr j
  unfold net
  rw [e1, e2]

end Cert.GinBn

end
-- ==== Proof.LibGatherRows.lean ====
/-
  A gather whose start indices are one column of row numbers, read at an index.

  The start indices have shape [E, 1]: result row e is operand row idx[e, 0], read as a SIGNED integer and clamped
  into [0, N − 1] (a negative number reads row 0, a number past the end reads the last row). For an operand [N, C]
  gathered in whole rows (slice sizes [1, C], the row axis collapsed, the column axis the offset axis) the result at
  (e, k) is the operand at (clamped idx[e, 0], k) (host_gather_rows_apply); for an operand [N] (slice sizes [1]) the
  result at e is the operand at the clamped idx[e, 0] (host_gather_vec_apply). This is what x[idx] lowers to for
  an index vector idx. Both follow from reading the operand index one axis at a time: on the row axis it is the
  clamped start index, on the column axis the result's own column.
-/
import Idealize.ShloMosaic.PureOps
import Idealize.ShloMosaic.Lib.ValueIdx

noncomputable section

namespace Cert.GatherRows

open Idealize.ShloMosaic Idealize.ShloMosaic.ValueIdx

/-- The row a signed row number reads: clamped into [0, N − 1]. -/
def clampRow (N : Nat) (hN : 0 < N) {w : Nat} (b : BitVec w) : Fin N := ⟨min b.toInt.toNat (N - 1), by omega⟩

theorem clampRow_val (N : Nat) (hN : 0 < N) {w : Nat} (b : BitVec w) : (clampRow N hN b).val = min b.toInt.toNat (N - 1) := rfl

/-- A row number already inside [0, N) reads its own row. -/
theorem clampRow_of_toInt (N : Nat) (hN : 0 < N) {w : Nat} (b : BitVec w) (v : Fin N) (h : b.toInt = (v.val : Int)) :
    clampRow N hN b = v := by
  apply Fin.ext
  rw [clampRow_val, h]
  have := v.isLt
  omega

/-! ## Whole rows of width C -/

section Rows
variable {α : Type} {N E C w : Nat}

/-- The dimension numbers of a row gather: operand [N, C], start indices [E, 1], result [E, C]. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand index of result (e, k): the clamped row number, and column k. -/
theorem row_operandIdx (hN : 0 < N) (idx : IVec ⟨2, ![E, 1]⟩ w) (e : Fin E) (k : Fin C) :
    (rowDims N E C wf).operandIdx (ix2 e k) idx = ix2 (clampRow N hN (idx (ix2 e 0))) k := by
  funext a
  refine Fin.ext ?_
  match a with
  | ⟨0, _⟩ =>
    show (rowDims N E C wf).start (ix2 e k) idx 0 + (rowDims N E C wf).batchCoord (ix2 e k) 0 + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    unfold GatherDims.start
    rw [dif_neg (show ¬ (1 : Fin 2) ∈ (rowDims N E C wf).startIndexMap from (show ¬ (1 : Fin 2) ∈ ([0] : List (Fin 2)) by decide))]
    unfold GatherDims.offCoord
    rw [dif_pos (show (1 : Fin 2) ∈ (rowDims N E C wf).sKept from
      (GatherDims.mem_sKept _ _).mpr ⟨(show ¬ (1 : Fin 2) ∈ ([0] : List (Fin 2)) by decide), List.not_mem_nil⟩)]
    simp only [Nat.zero_add]
    rfl

/-- THE ROW GATHER READ AT (e, k): the operand at (clamped idx[e, 0], k), for ANY dimension numbers of a row gather (a
    program's own record: its seven fields are these by unfolding). -/
theorem host_gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (k : Fin C) :
    Host.gather d x idx (ix2 e k) = x (ix2 (clampRow N hN (idx (ix2 e 0))) k) := by
  obtain ⟨od, cs, ob, sb, sm, iv, ss, wf⟩ := d
  dsimp only at h1 h2 h3 h4 h5 h6 h7
  subst h1 h2 h3 h4 h5 h6 h7
  unfold Host.gather
  exact congrArg x (row_operandIdx wf hN idx e k)

end Rows

/-! ## Scalars -/

section Vec
variable {α : Type} {N E w : Nat}

/-- The dimension numbers of the rank-1 form: operand [N], start indices [E, 1], result [E]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF ⟨1, ![N]⟩ ⟨2, ![E, 1]⟩ ⟨1, ![E]⟩ [] [0] [] [0] [] 1 ![1])

/-- The operand index of result e: the clamped row number. -/
theorem vec_operandIdx (hN : 0 < N) (idx : IVec ⟨2, ![E, 1]⟩ w) (e : Fin E) :
    (vecDims N E wf).operandIdx (ix1 e) idx = ix1 (clampRow N hN (idx (ix2 e 0))) := by
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE RANK-1 GATHER READ AT e: the operand at the clamped idx[e, 0], for ANY dimension numbers of that form. -/
theorem host_gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e 0)))) := by
  obtain ⟨od, cs, ob, sb, sm, iv, ss, wf⟩ := d
  dsimp only at h1 h2 h3 h4 h5 h6 h7
  subst h1 h2 h3 h4 h5 h6 h7
  unfold Host.gather
  exact congrArg x (vec_operandIdx wf hN idx e)

end Vec

end Cert.GatherRows

end
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.Finite.lean ====
/-
  Finite inputs give a real-valued first layer.

  The precondition says of each float argument array that every entry x satisfies |x| < +∞, all nine facts and-ed into
  one bit. Over the extended reals |x| is max x (−x), which is +∞ at both infinities, so an entry with |x| < +∞ is the
  image of a real number (isReal_of_abs_lt); read back through the conjunction and the reductions over all axes, the
  precondition makes every entry of the features, of the first weights and of the first bias real (real_of_pre).

  The aggregated neighbour features are an accumulating row scatter, into an array of zeros, of rows gathered from the
  features: each entry is 0 plus a finite sum of entries of the features, whichever rows the index arrays name, so it
  is real when the features are (agg_real). The first layer's output is, entry by entry, a finite sum of products
  (x + agg) · w plus a bias, so it is real when features, aggregate, weights and bias are (h1_real).
-/
import proofs.«148175_j44744969290572_2_alg».proof.Pre_finite_inputs
import proofs.«148175_j44744969290572_2_alg».proof.Proof.Gen.ReferenceIdeal.Read
import proofs.«148175_j44744969290572_2_alg».proof.Proof.Spec
import proofs.«148175_j44744969290572_2_alg».proof.Proof.LibRealSums
import proofs.«148175_j44744969290572_2_alg».proof.Proof.LibGatherRows
import proofs.«148175_j44744969290572_2_alg».proof.Proof.LibScatterRows
import Idealize.ShloMosaic.Lib.ReduceAll

noncomputable section

open scoped BigOperators

namespace Cert.GinBn.Fin

open Cert.GinBn Cert.RealSums Idealize.ShloMosaic Idealize.ShloMosaic.ValueIdx

/-! ## An entry below +∞ in absolute value is real -/

/-- The pattern 0x7F800000 (sign 0, exponent all ones, fraction 0) denotes +∞. -/
theorem top_eq : Ideal.ofBits .f32 0x7F800000#32 = (⊤ : EReal) := by
  simp [Ideal.ofBits, Ideal.ieee]

/-- |x| < +∞ fails at −∞ and at +∞ (there |x| = max x (−x) = +∞), so it leaves the images of the reals. -/
theorem isReal_of_abs_lt (x : EReal)
    (h : FloatOps.cmpf (F := Ideal) (φ := .f32) .olt (FloatOps.absf (F := Ideal) (φ := .f32) x)
      (FloatOps.ofBits (F := Ideal) .f32 0x7F800000#32) = 1#1) :
    IsReal x := by
  rw [Ideal.ofBits_def, top_eq] at h
  induction x using EReal.rec with
  | bot => exact absurd h (by simp [Ideal.cmpf_def, Ideal.absf_def, Ideal.cmp])
  | top => exact absurd h (by simp [Ideal.cmpf_def, Ideal.absf_def, Ideal.cmp])
  | coe r => exact isReal_coe r

/-! ## The precondition read back -/

/-- The scalar shape has one index. -/
local instance : Subsingleton Cert.Pre_finite_inputs.S_.Idx := ⟨fun a b => funext fun d => d.elim0⟩

open Cert.Pre_finite_inputs Cert.Pre_finite_inputs.Facts in
/-- THE PRECONDITION MAKES THE FIRST LAYER'S ARGUMENTS REAL. The predicate is a left-nested conjunction of nine bits, one
    per float array, each the reduction by and over all axes of the entrywise comparison |x| < +∞; the three innermost
    are those of the features x0, the first weights x2 and the first bias x3. -/
theorem real_of_pre [Cert.Pre_finite_inputs.Facts]
    (x0 : FVec Ideal Cert.Pre_finite_inputs.S100000x128 .f32) (x1 : IVec Cert.Pre_finite_inputs.S2x600000 32) (x2 : FVec Ideal Cert.Pre_finite_inputs.S128x128 .f32) (x3 x4 x5 : FVec Ideal Cert.Pre_finite_inputs.S128 .f32) (x6 : FVec Ideal Cert.Pre_finite_inputs.S128x128 .f32) (x7 : FVec Ideal Cert.Pre_finite_inputs.S128 .f32) (x8 : FVec Ideal Cert.Pre_finite_inputs.S40x128 .f32) (x9 : FVec Ideal Cert.Pre_finite_inputs.S40 .f32)
    (h : Cert.Pre_finite_inputs.fn (F := Ideal) x0 x1 x2 x3 x4 x5 x6 x7 x8 x9 = fun _ => 1#1) :
    (∀ i, IsReal (x0 i)) ∧ (∀ i, IsReal (x2 i)) ∧ (∀ i, IsReal (x3 i)) := by
  have h' := congrFun h ValueIdx.ix0
  dsimp only [fn, fn_part1, fn_part2] at h'
  simp only [andi, IntOp.andi_eq_one] at h'
  obtain ⟨⟨⟨⟨⟨⟨⟨⟨e0, e2⟩, e3⟩, _⟩, _⟩, _⟩, _⟩, _⟩, _⟩ := h'
  refine ⟨fun i => ?_, fun i => ?_, fun i => ?_⟩
  · exact isReal_of_abs_lt _ (Host.reduce_andi_all _ _ _ _ _ e0 i)
  · exact isReal_of_abs_lt _ (Host.reduce_andi_all _ _ _ _ _ e2 i)
  · exact isReal_of_abs_lt _ (Host.reduce_andi_all _ _ _ _ _ e3 i)

/-! ## The aggregated neighbour features -/

open Cert.ReferenceIdeal Cert.ReferenceIdeal.Read in
/-- THE AGGREGATE IS REAL. Entry (v, k) of the accumulating row scatter is the zero operand's entry plus the sum, over the
    update rows e whose row number is v, of entry (e, k) of the gathered rows; that entry is the features at
    (some row, k). Which rows are named plays no part. -/
theorem agg_real (x0 : (⟨Cert.ReferenceIdeal.S100000x128, .f32⟩ : BufTy).Contents (Elt Ideal)) (x1 : (⟨Cert.ReferenceIdeal.S2x600000, .i32⟩ : BufTy).Contents (Elt Ideal))
    (h0 : ∀ i, IsReal (x0 i)) : ∀ i, IsReal (Cert.ReferenceIdeal.Read.val_main_v13 (F := Ideal) x0 x1 i) := by
  intro i
  have hi : i = ix2 (n0 := 100000) (n1 := 128) ⟨(i 0).val, (i 0).isLt⟩ ⟨(i 1).val, (i 1).isLt⟩ :=
    eq_ix2 (n0 := 100000) (n1 := 128) i
  generalize (⟨(i 0).val, (i 0).isLt⟩ : Fin 100000) = v at hi
  generalize (⟨(i 1).val, (i 1).isLt⟩ : Fin 128) = k at hi
  subst hi
  unfold val_main_v13
  generalize val_main_v12 (F := Ideal) x1 = idx
  refine (Cert.ScatterRows.host_scatterAdd_rows_apply (N := 100000) (E := 600000) (C := 128) (φ := .f32)
    scatter_S100000x128_S600000x1_S600000x128_1_0_0_1 rfl rfl rfl rfl (val_main_v11 (F := Ideal)) idx
    (val_main_v10 (F := Ideal) x0 x1) v k).symm ▸ ?_
  refine IsReal.add ?_ (isReal_sum _ _ fun e _ => ?_)
  · rw [val_main_v11_apply, val_main_cst_apply, Ideal.ofBits_def, Ideal.ofBits_zero_f32]
    exact isReal_zero
  · unfold val_main_v10
    generalize val_main_v9 (F := Ideal) x1 = gidx
    rw [Cert.GatherRows.host_gather_rows_apply (N := 100000) (E := 600000) (C := 128) (by decide)
      gather_S100000x128_S600000x1_S600000x128_1_0_n_n_0_1_1128 rfl rfl rfl rfl rfl rfl rfl x0 gidx e k]
    exact h0 _

/-! ## The first layer's output -/

/-- THE FIRST LAYER'S OUTPUT IS REAL: entry (r, j) is the sum over k of (x r k + agg r k) · w j k, plus b j. -/
theorem h1_real (x0 agg : (⟨2, ![100000, 128]⟩ : Shape).Idx → EReal) (x2 : (⟨2, ![128, 128]⟩ : Shape).Idx → EReal) (x3 : (⟨1, ![128]⟩ : Shape).Idx → EReal)
    (h0 : ∀ i, IsReal (x0 i)) (ha : ∀ i, IsReal (agg i)) (h2 : ∀ i, IsReal (x2 i)) (h3 : ∀ i, IsReal (x3 i)) :
    ∀ r j, IsReal (h1 x0 agg x2 x3 r j) := by
  intro r j
  unfold h1 lin1 mat vec
  exact (isReal_sum _ _ fun k _ => ((h0 _).add (ha _)).mul (h2 _)).add (h3 _)

end Cert.GinBn.Fin

end
-- ==== Proof.RefValue.lean ====
/-
  The reference program's result is the specification.

  The reference adds to every node's feature row the aggregated rows of its in-neighbours, applies the first linear
  layer, takes every column's mean and biased variance over all 100000 rows, normalises, scales, shifts and rectifies,
  applies the hidden layer (rectified twice) and the output layer. Read operation by operation at an index, each stage
  is the corresponding function of the specification: the first layer's output is h1, the column statistics are the
  textbook colMean and colVar, and the remaining stages are bn, hid and outp. The aggregated rows enter only as an
  array that is added to the features; nothing about how they were computed is used.

  The weights are stored with the OUTPUT feature first, and the program multiplies by their transposes: entry (k, j)
  of a transposed weight array is entry (j, k) of the array, which is how lin1, hid and outp index their weights.
-/
import proofs.«148175_j44744969290572_2_alg».proof.Proof.Gen.ReferenceIdeal.Read
import proofs.«148175_j44744969290572_2_alg».proof.Proof.Spec

noncomputable section

open scoped BigOperators

namespace Cert.GinBn.Ref

open Cert.GinBn Cert.ReferenceIdeal Cert.ReferenceIdeal.Read Idealize.ShloMosaic Idealize.ShloMosaic.ValueIdx

/-! ## The index maps of the layout operations, on indices given by their coordinates -/

/-- The left operand of a row-by-matrix product at (r, j), k-th term: entry (r, k). -/
theorem lidx16 (r : Fin 100000) (j k : Fin 128) : lidx_main_v16 (ix2 r j) k = ix2 r k :=
  funext fun a => Fin.ext (by match a with | ⟨0, _⟩ => rfl | ⟨1, _⟩ => rfl)

/-- The right operand of that product: entry (k, j). -/
theorem ridx16 (r : Fin 100000) (j k : Fin 128) : ridx_main_v16 (ix2 r j) k = ix2 k j :=
  funext fun a => Fin.ext (by match a with | ⟨0, _⟩ => rfl | ⟨1, _⟩ => rfl)

/-- Entry (k, j) of a transposed square array is entry (j, k). -/
theorem idx15 (k j : Fin 128) : idx_main_v15 (ix2 k j) = ix2 j k :=
  funext fun a => Fin.ext (by match a with | ⟨0, _⟩ => rfl | ⟨1, _⟩ => rfl)

/-- A row vector repeated down the rows: entry (r, j) is entry (0, j) of the one-row array. -/
theorem idx18 (r : Fin 100000) (j : Fin 128) : idx_main_v18 (ix2 r j) = ix2 (0 : Fin 1) j :=
  funext fun a => Fin.ext (by match a with | ⟨0, _⟩ => rfl | ⟨1, _⟩ => rfl)

/-- A vector as a one-row array: entry (0, j) is entry j. -/
theorem idx17 (j : Fin 128) : idx_main_v17 (ix2 (0 : Fin 1) j) = ix1 j :=
  funext fun a => Fin.ext (by match a with | ⟨0, _⟩ => rfl)

/-- A sum down a column: the k-th term of column j is entry (k, j). -/
theorem idx20 (j : Fin 128) (k : Fin 100000) : idx_main_v20 (ix1 j) k = ix2 k j :=
  funext fun a => Fin.ext (by match a with | ⟨0, _⟩ => rfl | ⟨1, _⟩ => rfl)
theorem idx27 (j : Fin 128) (k : Fin 100000) : idx_main_v27 (ix1 j) k = ix2 k j :=
  funext fun a => Fin.ext (by match a with | ⟨0, _⟩ => rfl | ⟨1, _⟩ => rfl)

/-- The other row vectors repeated down the rows, and the vectors as one-row arrays. -/
theorem idx24 (r : Fin 100000) (j : Fin 128) : idx_main_v24 (ix2 r j) = ix2 (0 : Fin 1) j :=
  funext fun a => Fin.ext (by match a with | ⟨0, _⟩ => rfl | ⟨1, _⟩ => rfl)
theorem idx23 (j : Fin 128) : idx_main_v23 (ix2 (0 : Fin 1) j) = ix1 j :=
  funext fun a => Fin.ext (by match a with | ⟨0, _⟩ => rfl)
theorem idx31 (r : Fin 100000) (j : Fin 128) : idx_main_v31 (ix2 r j) = ix2 (0 : Fin 1) j :=
  funext fun a => Fin.ext (by match a with | ⟨0, _⟩ => rfl | ⟨1, _⟩ => rfl)
theorem idx30 (j : Fin 128) : idx_main_v30 (ix2 (0 : Fin 1) j) = ix1 j :=
  funext fun a => Fin.ext (by match a with | ⟨0, _⟩ => rfl)
theorem idx37 (r : Fin 100000) (j : Fin 128) : idx_main_v37 (ix2 r j) = ix2 (0 : Fin 1) j :=
  funext fun a => Fin.ext (by match a with | ⟨0, _⟩ => rfl | ⟨1, _⟩ => rfl)
theorem idx36 (j : Fin 128) : idx_main_v36 (ix2 (0 : Fin 1) j) = ix1 j :=
  funext fun a => Fin.ext (by match a with | ⟨0, _⟩ => rfl)
theorem idx40 (r : Fin 100000) (j : Fin 128) : idx_main_v40 (ix2 r j) = ix2 (0 : Fin 1) j :=
  funext fun a => Fin.ext (by match a with | ⟨0, _⟩ => rfl | ⟨1, _⟩ => rfl)
theorem idx39 (j : Fin 128) : idx_main_v39 (ix2 (0 : Fin 1) j) = ix1 j :=
  funext fun a => Fin.ext (by match a with | ⟨0, _⟩ => rfl)
theorem idx43 (r : Fin 100000) (j : Fin 128) : idx_main_v43 (ix2 r j) = ix2 (0 : Fin 1) j :=
  funext fun a => Fin.ext (by match a with | ⟨0, _⟩ => rfl | ⟨1, _⟩ => rfl)
theorem idx42 (j : Fin 128) : idx_main_v42 (ix2 (0 : Fin 1) j) = ix1 j :=
  funext fun a => Fin.ext (by match a with | ⟨0, _⟩ => rfl)
theorem idx49 (r : Fin 100000) (j : Fin 128) : idx_main_v49 (ix2 r j) = ix2 (0 : Fin 1) j :=
  funext fun a => Fin.ext (by match a with | ⟨0, _⟩ => rfl | ⟨1, _⟩ => rfl)
theorem idx48 (j : Fin 128) : idx_main_v48 (ix2 (0 : Fin 1) j) = ix1 j :=
  funext fun a => Fin.ext (by match a with | ⟨0, _⟩ => rfl)
theorem idx56 (r : Fin 100000) (c : Fin 40) : idx_main_v56 (ix2 r c) = ix2 (0 : Fin 1) c :=
  funext fun a => Fin.ext (by match a with | ⟨0, _⟩ => rfl | ⟨1, _⟩ => rfl)
theorem idx55 (c : Fin 40) : idx_main_v55 (ix2 (0 : Fin 1) c) = ix1 c :=
  funext fun a => Fin.ext (by match a with | ⟨0, _⟩ => rfl)

/-- The hidden layer's product and its transposed weights. -/
theorem lidx47 (r : Fin 100000) (j k : Fin 128) : lidx_main_v47 (ix2 r j) k = ix2 r k :=
  funext fun a => Fin.ext (by match a with | ⟨0, _⟩ => rfl | ⟨1, _⟩ => rfl)
theorem ridx47 (r : Fin 100000) (j k : Fin 128) : ridx_main_v47 (ix2 r j) k = ix2 k j :=
  funext fun a => Fin.ext (by match a with | ⟨0, _⟩ => rfl | ⟨1, _⟩ => rfl)
theorem idx46 (k j : Fin 128) : idx_main_v46 (ix2 k j) = ix2 j k :=
  funext fun a => Fin.ext (by match a with | ⟨0, _⟩ => rfl | ⟨1, _⟩ => rfl)

/-- The output layer's product and its transposed weights: entry (k, c) of the transpose is entry (c, k). -/
theorem lidx54 (r : Fin 100000) (c : Fin 40) (k : Fin 128) : lidx_main_v54 (ix2 r c) k = ix2 r k :=
  funext fun a => Fin.ext (by match a with | ⟨0, _⟩ => rfl | ⟨1, _⟩ => rfl)
theorem ridx54 (r : Fin 100000) (c : Fin 40) (k : Fin 128) : ridx_main_v54 (ix2 r c) k = ix2 k c :=
  funext fun a => Fin.ext (by match a with | ⟨0, _⟩ => rfl | ⟨1, _⟩ => rfl)
theorem idx53 (k : Fin 128) (c : Fin 40) : idx_main_v53 (ix2 k c) = ix2 c k :=
  funext fun a => Fin.ext (by match a with | ⟨0, _⟩ => rfl | ⟨1, _⟩ => rfl)

section
variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S40x128, .f32⟩ : BufTy).Contents (Elt Ideal)) (x9 : (⟨S40, .f32⟩ : BufTy).Contents (Elt Ideal))

/-! ## The first linear layer -/

/-- The first layer's output at (r, j): the sum over k of (x + agg)(r, k) · w1(j, k), plus b1(j). -/
theorem v19_eq (r : Fin 100000) (j : Fin 128) :
    val_main_v19 (F := Ideal) x0 x1 x2 x3 (ix2 r j) = h1 x0 (val_main_v13 (F := Ideal) x0 x1) x2 x3 r j := by
  rw [val_main_v19_apply, val_main_v16_apply, val_main_v18_apply, val_main_v17_apply, idx18, idx17]
  simp only [lidx16, ridx16, val_main_v14_apply, val_main_v15_apply, idx15, Ideal.addf_def]
  rfl

/-! ## The column statistics -/

/-- Column j's mean: the column's sum (started from the literal zero) divided by the row count. -/
theorem v22_eq (j : Fin 128) :
    val_main_v22 (F := Ideal) x0 x1 x2 x3 (ix1 j) = colMean (h1 x0 (val_main_v13 (F := Ideal) x0 x1) x2 x3) j := by
  rw [val_main_v22_apply, val_main_v20_apply, val_main_v21_apply, val_main_cst_1_apply, val_main_cst_2_apply]
  simp only [idx20, v19_eq, Ideal.hostDivf_def, Ideal.ofBits_def, Ideal.ofBits_zero_f32, zero_add]
  rfl

/-- The deviation of entry (r, j) from its column's mean. -/
theorem v25_eq (r : Fin 100000) (j : Fin 128) :
    val_main_v25 (F := Ideal) x0 x1 x2 x3 (ix2 r j)
      = h1 x0 (val_main_v13 (F := Ideal) x0 x1) x2 x3 r j - colMean (h1 x0 (val_main_v13 (F := Ideal) x0 x1) x2 x3) j := by
  rw [val_main_v25_apply, val_main_v24_apply, idx24, val_main_v23_apply, idx23, v19_eq, v22_eq, Ideal.subf_def]

/-- Column j's biased variance: the sum of the squared deviations divided by the row count. -/
theorem v29_eq (j : Fin 128) :
    val_main_v29 (F := Ideal) x0 x1 x2 x3 (ix1 j) = colVar (h1 x0 (val_main_v13 (F := Ideal) x0 x1) x2 x3) j := by
  rw [val_main_v29_apply, val_main_v27_apply, val_main_v28_apply, val_main_cst_3_apply, val_main_cst_4_apply]
  simp only [idx27, val_main_v26_apply, v25_eq, Ideal.mulf_def, Ideal.hostDivf_def, Ideal.ofBits_def, Ideal.ofBits_zero_f32, zero_add]
  rfl

/-! ## Normalisation and the perceptron -/

/-- Entry (r, j) after normalisation, scale, shift and rectification. -/
theorem v45_eq (r : Fin 100000) (j : Fin 128) :
    val_main_v45 (F := Ideal) x0 x1 x2 x3 x4 x5 (ix2 r j)
      = bn (h1 x0 (val_main_v13 (F := Ideal) x0 x1) x2 x3) (colMean (h1 x0 (val_main_v13 (F := Ideal) x0 x1) x2 x3))
          (colVar (h1 x0 (val_main_v13 (F := Ideal) x0 x1) x2 x3)) (vec x4) (vec x5) r j := by
  rw [val_main_v45_apply, val_main_v44_apply, val_main_v41_apply, val_main_v38_apply, val_main_v32_apply,
    val_main_v31_apply, idx31, val_main_v30_apply, idx30, v19_eq, v22_eq,
    val_main_v37_apply, idx37, val_main_v36_apply, idx36, val_main_v35_apply, val_main_v34_apply, v29_eq,
    val_main_v33_apply, val_main_cst_5_apply,
    val_main_v40_apply, idx40, val_main_v39_apply, idx39,
    val_main_v43_apply, idx43, val_main_v42_apply, idx42,
    val_main_call0_v0_apply, val_main_call0_cst_apply]
  simp only [Ideal.maximumf_def, Ideal.addf_def, Ideal.mulf_def, Ideal.subf_def, Ideal.hostUnary_rsqrt_def,
    Ideal.ofBits_def, Ideal.ofBits_zero_f32]
  rfl

/-- The hidden layer at (r, k): the sum over j of a(r, j) · w2(k, j), plus b2(k), rectified twice. -/
theorem v52_eq (r : Fin 100000) (k : Fin 128) :
    val_main_v52 (F := Ideal) x0 x1 x2 x3 x4 x5 x6 x7 (ix2 r k)
      = hid (bn (h1 x0 (val_main_v13 (F := Ideal) x0 x1) x2 x3) (colMean (h1 x0 (val_main_v13 (F := Ideal) x0 x1) x2 x3))
          (colVar (h1 x0 (val_main_v13 (F := Ideal) x0 x1) x2 x3)) (vec x4) (vec x5)) (mat x6) (vec x7) r k := by
  rw [val_main_v52_apply, val_main_v51_apply, val_main_v50_apply, val_main_v47_apply,
    val_main_v49_apply, idx49, val_main_v48_apply, idx48,
    val_main_call1_v0_apply, val_main_call1_cst_apply, val_main_call2_v0_apply, val_main_call2_cst_apply]
  simp only [lidx47, ridx47, v45_eq, val_main_v46_apply, idx46, Ideal.maximumf_def, Ideal.addf_def,
    Ideal.ofBits_def, Ideal.ofBits_zero_f32]
  rfl

/-- The output layer at (r, c): the sum over k of a(r, k) · wl(c, k), plus bl(c). -/
theorem v57_eq (r : Fin 100000) (c : Fin 40) :
    val_main_v57 (F := Ideal) x0 x1 x2 x3 x4 x5 x6 x7 x8 x9 (ix2 r c)
      = model (h1 x0 (val_main_v13 (F := Ideal) x0 x1) x2 x3) (colMean (h1 x0 (val_main_v13 (F := Ideal) x0 x1) x2 x3))
          (colVar (h1 x0 (val_main_v13 (F := Ideal) x0 x1) x2 x3)) (vec x4) (vec x5) (mat x6) (vec x7) (mat x8) (vec x9) r c := by
  rw [val_main_v57_apply, val_main_v54_apply, val_main_v56_apply, idx56, val_main_v55_apply, idx55]
  simp only [lidx54, ridx54, v52_eq, val_main_v53_apply, idx53, Ideal.addf_def]
  rfl

end

/-! ## The result -/

/-- The reference program's result array is the specification's, with the textbook column statistics. -/
theorem ref_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S40x128, .f32⟩ : BufTy).Contents (Elt Ideal)) (x9 : (⟨S40, .f32⟩ : BufTy).Contents (Elt Ideal)) :
    val_main_v57 (F := Ideal) x0 x1 x2 x3 x4 x5 x6 x7 x8 x9
      = net colMean colVar x0 (val_main_v13 (F := Ideal) x0 x1) x2 x3 x4 x5 x6 x7 x8 x9 := by
  funext i
  obtain ⟨r, c, rfl⟩ : ∃ (r : Fin 100000) (c : Fin 40), i = ix2 r c := ⟨i 0, i 1, eq_ix2 i⟩
  rw [v57_eq]
  rfl

end Cert.GinBn.Ref

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Payloads.lean ====
/-
  The arithmetic of the two tile computations, read entry by entry over the extended reals.

  The first computation takes a tile of 5000 rows of x and of agg, a [128, 128] weight matrix and a bias row. Its value
  at (p, j) is the sum over k of (x p k + agg p k) · w k j, plus the bias at j (pay1_apply; the stored copy, pay4_apply,
  is the same, a change of number format being the identity on the extended reals). Its two rows of statistics are the
  column sums of that value over the tile's 5000 rows (pay2_apply) and the column sums of its squares (pay3_apply), each
  repeated over 8 rows.

  The second computation normalises a tile entry by a mean row and by the reciprocal square root of a variance row offset
  by eps, scales, shifts and rectifies it (bnK), applies a linear layer rectified twice (hidK), and then a last linear
  layer into 40 columns (pay1_2_apply).

  Each reading goes through the operations one at a time: an elementwise operation is read at the index, a row broadcast
  reads its one row, a matrix product into a zero accumulator is the sum over the contracted coordinate, and a sum over
  the rows of a tile is the sum over the row coordinate (colSum_apply).
-/
import proofs.«148175_j44744969290572_2_alg».proof.Proof.Gen.KernelIdeal.Skeleton
import proofs.«148175_j44744969290572_2_alg».proof.Proof.Spec
import proofs.«148175_j44744969290572_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GinBn.Pay

open Cert.GinBn Cert.KernelIdeal Cert.KernelIdeal.Gen Idealize.ShloMosaic Idealize.ShloMosaic.ValueIdx

/-- The sum over the rows of an [a, b] array, read at column j. -/
theorem colSum_apply {a b : Nat} (src : FVec Ideal ⟨2, ![a, b]⟩ .f32) (h : Shape.Reduces ⟨2, ![a, b]⟩ [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ p : Fin a, src (ix2 p j) := by
  refine (Ideal.multiReduction_add_single src 0x00000000#32 h hφ hacc (ix1 j)).trans ?_
  refine Finset.sum_congr rfl fun p _ => congrArg src ?_
  funext d; refine Fin.ext ?_
  match d with
  | ⟨0, _⟩ => rfl
  | ⟨1, _⟩ => rfl

section First
variable (v0 v1 : Vec Ideal S5000x128 .f32) (v5 : Vec Ideal S128x128 .bf16) (v8 : Vec Ideal S1x128 .f32)

/-- The first layer on the tile: entry (p, j) is the sum over k of (x p k + agg p k) · w k j, plus the bias at j. -/
theorem pay1_apply (p : Fin 5000) (j : Fin 128) :
    k0_pay1 (F := Ideal) v0 v1 v5 v8 (ix2 p j)
      = (∑ k : Fin 128, (v0 (ix2 p k) + v1 (ix2 p k)) * v5 (ix2 k j)) + v8 (ix2 0 j) := by
  unfold k0_pay1
  simp only [shapeCast_self]
  refine (addf_apply _ _ _).trans ?_
  refine congrArg₂ (· + ·) ?_ (broadcastTo_1b_ab_apply v8 _ p j)
  refine (Cert.PlainDot.matmul_zero_apply (φ₁ := .bf16) (φ₂ := .bf16) _ rfl rfl rfl rfl rfl rfl none _ _ p j).trans ?_
  rfl

/-- The stored copy of the first layer's tile has the same entries. -/
theorem pay4_apply (p : Fin 5000) (j : Fin 128) :
    k0_pay4 (F := Ideal) v0 v1 v5 v8 (ix2 p j)
      = (∑ k : Fin 128, (v0 (ix2 p k) + v1 (ix2 p k)) * v5 (ix2 k j)) + v8 (ix2 0 j) := by
  unfold k0_pay4
  exact (truncf_apply (φ := .f32) (ψ := .bf16) _ _ _).trans (pay1_apply v0 v1 v5 v8 p j)

/-- Every one of the 8 rows of the first statistic holds, at column j, the sum of column j over the tile's rows. -/
theorem pay2_apply (s : Fin 8) (j : Fin 128) :
    k0_pay2 (F := Ideal) v0 v1 v5 v8 (ix2 s j) = ∑ p : Fin 5000, k0_pay1 (F := Ideal) v0 v1 v5 v8 (ix2 p j) := by
  unfold k0_pay2
  simp only [shapeCast_self]
  refine (broadcastTo_1b_ab_apply _ _ s j).trans ?_
  refine (shapeCast_a_1a_apply _ _ 0 j).trans ?_
  exact colSum_apply _ _ _ _ j

/-- Every one of the 8 rows of the second statistic holds, at column j, the sum of the squares of column j over the
    tile's rows. -/
theorem pay3_apply (s : Fin 8) (j : Fin 128) :
    k0_pay3 (F := Ideal) v0 v1 v5 v8 (ix2 s j)
      = ∑ p : Fin 5000, k0_pay1 (F := Ideal) v0 v1 v5 v8 (ix2 p j) * k0_pay1 (F := Ideal) v0 v1 v5 v8 (ix2 p j) := by
  unfold k0_pay3
  simp only [shapeCast_self]
  refine (broadcastTo_1b_ab_apply _ _ s j).trans ?_
  refine (shapeCast_a_1a_apply _ _ 0 j).trans ?_
  refine (colSum_apply _ _ _ _ j).trans ?_
  exact Finset.sum_congr rfl fun p _ => mulf_apply _ _ _

end First

/-- A rectification: the maximum with the zero splat is the maximum with 0. -/
theorem relu_apply {s : Shape} (x : FVec Ideal s .f32) (i : s.Idx) :
    maximumf x (broadcast s (Scalar.ofBits (F := Ideal) .f32 0x00000000#32)) i = max (x i) 0 :=
  congrArg (max (x i)) Ideal.ofBits_zero_f32

section Second
variable (w0 : Vec Ideal S5000x128 .bf16) (w3 w8 w14 w18 : Vec Ideal S1x128 .f32) (w25 : Vec Ideal S128x128 .bf16)
  (w28 : Vec Ideal S1x128 .f32) (w37 : Vec Ideal S128x40 .bf16) (w40 : Vec Ideal S1x40 .f32)

/-- Entry (p, j) of the normalised, scaled, shifted and rectified tile: w3 is the variance row, w8 the mean row,
    w14 the scale, w18 the shift. -/
def bnK (p : Fin 5000) (j : Fin 128) : EReal :=
  max ((w0 (ix2 p j) - w8 (ix2 0 j)) * Ideal.rsqrt (w3 (ix2 0 j) + eps) * w14 (ix2 0 j) + w18 (ix2 0 j)) 0

/-- Entry (p, k) of the hidden layer of the tile: a linear layer on bnK, rectified twice. -/
def hidK (p : Fin 5000) (k : Fin 128) : EReal :=
  max (max ((∑ j : Fin 128, bnK w0 w3 w8 w14 w18 p j * w25 (ix2 j k)) + w28 (ix2 0 k)) 0) 0

/-- The hidden layer of the tile, entry by entry. -/
theorem pay2k_apply (p : Fin 5000) (k : Fin 128) :
    k1_pay2 (F := Ideal) w0 w3 w8 w14 w18 w25 w28 (ix2 p k) = hidK w0 w3 w8 w14 w18 w25 w28 p k := by
  unfold k1_pay2 hidK
  simp only [shapeCast_self]
  refine (truncf_apply (φ := .f32) (ψ := .bf16) _ _ _).trans ?_
  refine (relu_apply _ _).trans ?_
  refine congrArg (max · 0) ?_
  refine (relu_apply _ _).trans ?_
  refine congrArg (max · 0) ?_
  refine (addf_apply _ _ _).trans ?_
  refine congrArg₂ (· + ·) ?_ (broadcastTo_1b_ab_apply w28 _ p k)
  refine (Cert.PlainDot.matmul_zero_apply (φ₁ := .bf16) (φ₂ := .bf16) _ rfl rfl rfl rfl rfl rfl none _ _ p k).trans ?_
  refine Finset.sum_congr rfl fun j _ => congrArg (· * w25 (ix2 j k)) ?_
  unfold bnK
  refine (truncf_apply (φ := .f32) (ψ := .bf16) _ _ _).trans ?_
  refine (relu_apply _ _).trans ?_
  refine congrArg (max · 0) ?_
  refine (addf_apply _ _ _).trans ?_
  refine congrArg₂ (· + ·) ?_ (broadcastTo_1b_ab_apply w18 _ p j)
  refine (mulf_apply _ _ _).trans ?_
  refine congrArg₂ (· * ·) ?_ (broadcastTo_1b_ab_apply w14 _ p j)
  refine (mulf_apply _ _ _).trans ?_
  refine congrArg₂ (· * ·) ?_ ?_
  · refine (subf_apply _ _ _).trans ?_
    exact congrArg₂ (· - ·) (extf_apply (φ := .bf16) (ψ := .f32) _ _ _) (broadcastTo_1b_ab_apply w8 _ p j)
  · refine (broadcastTo_1b_ab_apply _ _ p j).trans ?_
    rfl

/-- The output tile: entry (p, c) is the sum over k of hidK p k · w k c, plus the bias at c. -/
theorem pay1_2_apply (p : Fin 5000) (c : Fin 40) :
    k1_pay1 (F := Ideal) (k1_pay2 (F := Ideal) w0 w3 w8 w14 w18 w25 w28) w37 w40 (ix2 p c)
      = (∑ k : Fin 128, hidK w0 w3 w8 w14 w18 w25 w28 p k * w37 (ix2 k c)) + w40 (ix2 0 c) := by
  unfold k1_pay1
  simp only [shapeCast_self]
  refine (addf_apply _ _ _).trans ?_
  refine congrArg₂ (· + ·) ?_ (broadcastTo_1b_ab_apply w40 _ p c)
  refine (Cert.PlainDot.matmul_zero_apply (φ₁ := .bf16) (φ₂ := .bf16) _ rfl rfl rfl rfl rfl rfl none _ _ p c).trans ?_
  exact Finset.sum_congr rfl fun k _ => congrArg (· * w37 (ix2 k c)) (pay2k_apply w0 w3 w8 w14 w18 w25 w28 p k)

end Second

end Cert.GinBn.Pay

end
-- ==== Proof.KRegion0.lean ====
/-
  The first kernel region, read as values.

  The region cuts the 100000 rows into 20 tiles of 5000. At tile t its body adds the tile of features to the tile of
  aggregated features, multiplies by the (whole) transposed weight matrix, adds the bias row: rows t · 5000 … of the
  first linear layer. It writes them back as the tile of the layer's array, and writes the tile's column sums and
  column sums of squares, each repeated over 8 rows, as rows t · 8 … of two arrays of partial sums. The blocks written
  back at the 20 points tile each array, so after the region the three arrays are, entry by entry, the whole first
  layer (H), the partial sums (P5) and the partial sums of squares (P6), as functions of the four arrays the region
  reads.
-/
import proofs.«148175_j44744969290572_2_alg».proof.Proof.Gen.KernelIdeal.Frame
import proofs.«148175_j44744969290572_2_alg».proof.Proof.Spec
import Idealize.ShloMosaic.Lib.Pipeline.Value
import Idealize.ShloMosaic.Lib.ValueIdx
import Idealize.ShloMosaic.PureOps.Ideal.Laws
import proofs.«148175_j44744969290572_2_alg».proof.Proof.Payloads

set_option maxRecDepth 16384

noncomputable section

open scoped BigOperators

namespace Cert.GinBn.K0

open Cert.GinBn Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The first layer from the region's four input arrays: features, aggregated features, the transposed weights and
    the bias as one row. -/
def lin (a0 a1 : S100000x128.Idx → EReal) (a2 : S128x128.Idx → EReal) (a3 : S1x128.Idx → EReal)
    (r : Fin 100000) (j : Fin 128) : EReal :=
  (∑ k : Fin 128, (a0 (ix2 r k) + a1 (ix2 r k)) * a2 (ix2 k j)) + a3 (ix2 0 j)

/-- The first layer's output over the arrays as the region finds them. -/
def H (c : Dev nD) : Fin 100000 → Fin 128 → EReal :=
  lin (V c main_arg0) (V c main_v13) (V c main_v15) (V c main_v16)

theorem hN : cfg0.N = 20 := N_0

/-- A grid point as a tile number. -/
def tl (t : Fin cfg0.N) : Fin 20 := ⟨t.val, by have h := t.isLt; have := hN; omega⟩

/-- The printed index maps over the grid: the row-tiled windows' block row is the point, every other block index 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p, column k of a feature tile is row (tile · 5000 + p) of the feature array. -/
theorem rd0 (c : Dev nD) (t : Fin cfg0.N) (p : Fin 5000) (k : Fin 128) :
    iblk0 V c 0 t (ix2 p k) = V c main_arg0 (ix2 (tileRow (tl t) p) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem rd1 (c : Dev nD) (t : Fin cfg0.N) (p : Fin 5000) (k : Fin 128) :
    iblk0 V c 1 t (ix2 p k) = V c main_v13 (ix2 (tileRow (tl t) p) k) := by
  obtain ⟨-, -, e0, e1, -⟩ := idx_facts t
  show V c main_v13 (((cfg0.win 1).blk t).view.emb (ix2 p k)) = _
  refine congrArg (V c main_v13) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem rd2 (c : Dev nD) (t : Fin cfg0.N) (k j : Fin 128) :
    iblk0 V c 2 t (ix2 k j) = V c main_v15 (ix2 k j) := by
  obtain ⟨-, -, -, -, e0, e1, -⟩ := idx_facts t
  show V c main_v15 (((cfg0.win 2).blk t).view.emb (ix2 k j)) = _
  refine congrArg (V c main_v15) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

theorem rd3 (c : Dev nD) (t : Fin cfg0.N) (j : Fin 128) :
    iblk0 V c 3 t (ix2 0 j) = V c main_v16 (ix2 0 j) := by
  obtain ⟨-, -, -, -, -, -, e0, e1, -⟩ := idx_facts t
  show V c main_v16 (((cfg0.win 3).blk t).view.emb (ix2 0 j)) = _
  refine congrArg (V c main_v16) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

/-- The first body's linear layer at row p of the point's tile is the layer at that row of the arrays. -/
theorem pay1_at (c : Dev nD) (t : Fin cfg0.N) (p : Fin 5000) (j : Fin 128) :
    k0_pay1 (F := Ideal) (iblk0 V c 0 t) (iblk0 V c 1 t) (iblk0 V c 2 t) (iblk0 V c 3 t) (ix2 p j) = H V c (tileRow (tl t) p) j := by
  refine (Pay.pay1_apply (iblk0 V c 0 t) (iblk0 V c 1 t) (iblk0 V c 2 t) (iblk0 V c 3 t) p j).trans ?_
  unfold H lin
  rw [rd3 V c t j]
  refine congrArg (· + _) (Finset.sum_congr rfl fun k _ => ?_)
  rw [rd0 V c t p k, rd1 V c t p k, rd2 V c t k j]

theorem hz : (![0, 0] : Fin 2 → Nat) = fun _ => 0 := funext fun a => by fin_cases a <;> rfl

/-- A function of two coordinates read at an index whose coordinates are known by value. -/
theorem ofFn2_of_val {a b : Nat} (f : Fin a → Fin b → EReal) (i : (⟨2, ![a, b]⟩ : Shape).Idx) (r : Fin a) (q : Fin b)
    (h0 : (i 0).val = r.val) (h1 : (i 1).val = q.val) : ofFn2 f i = f r q :=
  congrArg₂ f (Fin.ext h0) (Fin.ext h1)

/-- The array of partial sums the first region leaves: row q holds its tile's column sums. -/
def P5 (c : Dev nD) : Fin 160 → Fin 128 → EReal := fun q j => partSum (H V c) q j
/-- The array of partial sums of squares. -/
def P6 (c : Dev nD) : Fin 160 → Fin 128 → EReal := fun q j => partSq (H V c) q j

/-- WHAT POINT t WRITES BACK of the first layer's output: rows t · 5000 … of the whole layer. -/
theorem flushed4 (c : Dev nD) (t : Fin cfg0.N) :
    (dat0 V c).flushed 4 t = ((cfg0.win 4).blk t).view.read (Elt Ideal) (ofFn2 (H V c)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨-, -, -, -, -, -, -, -, e0, e1, -⟩ := idx_facts t
  funext y
  obtain ⟨p, j, rfl⟩ : ∃ (p : Fin 5000) (j : Fin 128), y = ix2 p j := ⟨y 0, y 1, eq_ix2 y⟩
  show k0_pay4 (F := Ideal) (iblk0 V c 0 t) (iblk0 V c 1 t) (iblk0 V c 2 t) (iblk0 V c 3 t) (ix2 p j)
    = ofFn2 (H V c) (((cfg0.win 4).blk t).view.emb (ix2 p j))
  refine ((Pay.pay4_apply _ _ _ _ p j).trans (Pay.pay1_apply _ _ _ _ p j).symm).trans ?_
  rw [pay1_at V c t p j]
  refine (ofFn2_of_val (H V c) _ (tileRow (tl t) p) j ?_ ?_).symm
  · show win0_4.index t (0 : Fin 2) * 5000 + 1 * p.val = t.val * 5000 + p.val; omega
  · show win0_4.index t (1 : Fin 2) * 128 + 1 * j.val = j.val; omega

/-- WHAT POINT t WRITES BACK of the partial sums: eight copies of the tile's column sums. -/
theorem flushed5 (c : Dev nD) (t : Fin cfg0.N) :
    (dat0 V c).flushed 5 t = ((cfg0.win 5).blk t).view.read (Elt Ideal) (ofFn2 (P5 V c)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1, -⟩ := idx_facts t
  funext y
  obtain ⟨s, j, rfl⟩ : ∃ (s : Fin 8) (j : Fin 128), y = ix2 s j := ⟨y 0, y 1, eq_ix2 y⟩
  show k0_pay2 (F := Ideal) (iblk0 V c 0 t) (iblk0 V c 1 t) (iblk0 V c 2 t) (iblk0 V c 3 t) (ix2 s j)
    = ofFn2 (P5 V c) (((cfg0.win 5).blk t).view.emb (ix2 s j))
  have ht := t.isLt; have hN' := hN
  refine (Pay.pay2_apply _ _ _ _ s j).trans ?_
  refine Eq.trans ?_ (ofFn2_of_val (P5 V c) _ ⟨t.val * 8 + s.val, by omega⟩ j ?_ ?_).symm
  · unfold P5 partSum
    refine Finset.sum_congr rfl fun p _ => ?_
    rw [pay1_at V c t p j]
    refine congrArg (fun u => H V c (tileRow u p) j) (Fin.ext ?_)
    show t.val = (t.val * 8 + s.val) / 8
    omega
  · show win0_5.index t (0 : Fin 2) * 8 + 1 * s.val = t.val * 8 + s.val; omega
  · show win0_5.index t (1 : Fin 2) * 128 + 1 * j.val = j.val; omega

/-- WHAT POINT t WRITES BACK of the partial sums of squares. -/
theorem flushed6 (c : Dev nD) (t : Fin cfg0.N) :
    (dat0 V c).flushed 6 t = ((cfg0.win 6).blk t).view.read (Elt Ideal) (ofFn2 (P6 V c)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨-, -, -, -, -, -, -, -, -, -, -, -, e0, e1⟩ := idx_facts t
  funext y
  obtain ⟨s, j, rfl⟩ : ∃ (s : Fin 8) (j : Fin 128), y = ix2 s j := ⟨y 0, y 1, eq_ix2 y⟩
  show k0_pay3 (F := Ideal) (iblk0 V c 0 t) (iblk0 V c 1 t) (iblk0 V c 2 t) (iblk0 V c 3 t) (ix2 s j)
    = ofFn2 (P6 V c) (((cfg0.win 6).blk t).view.emb (ix2 s j))
  have ht := t.isLt; have hN' := hN
  refine (Pay.pay3_apply _ _ _ _ s j).trans ?_
  refine Eq.trans ?_ (ofFn2_of_val (P6 V c) _ ⟨t.val * 8 + s.val, by omega⟩ j ?_ ?_).symm
  · unfold P6 partSq
    refine Finset.sum_congr rfl fun p _ => ?_
    rw [pay1_at V c t p j]
    refine congrArg (fun u => H V c (tileRow u p) j * H V c (tileRow u p) j) (Fin.ext ?_)
    show t.val = (t.val * 8 + s.val) / 8
    omega
  · show win0_6.index t (0 : Fin 2) * 8 + 1 * s.val = t.val * 8 + s.val; omega
  · show win0_6.index t (1 : Fin 2) * 128 + 1 * j.val = j.val; omega

/-- An index of the first layer's array is in point t's block iff its row is in the tile's range. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v17_0).slice (win0_4.rect t)).set ↔ _
  rw [View.set_slice_whole, Rect.mem_set_unit]
  exact Iff.rfl

theorem mem_blk5 (t : Fin cfg0.N) (i : S160x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v17_1).slice (win0_5.rect t)).set ↔ _
  rw [View.set_slice_whole, Rect.mem_set_unit]
  exact Iff.rfl

theorem mem_blk6 (t : Fin cfg0.N) (i : S160x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v17_2).slice (win0_6.rect t)).set ↔ _
  rw [View.set_slice_whole, Rect.mem_set_unit]
  exact Iff.rfl

/-- Every row of the first layer's array is in the block of the point its tile is. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN' := hN
  refine ⟨⟨(i 0).val / 5000, by omega⟩, flush0_4 _, ?_⟩
  rw [mem_blk4]
  obtain ⟨-, -, -, -, -, -, -, -, e0, e1, -⟩ := idx_facts ⟨(i 0).val / 5000, by omega⟩
  intro a
  match a with
  | ⟨0, _⟩ => show win0_4.index _ (0 : Fin 2) * 5000 ≤ (i 0).val ∧ (i 0).val < win0_4.index _ (0 : Fin 2) * 5000 + 5000; rw [e0]; show (i 0).val / 5000 * 5000 ≤ (i 0).val ∧ (i 0).val < (i 0).val / 5000 * 5000 + 5000; omega
  | ⟨1, _⟩ => show win0_4.index _ (1 : Fin 2) * 128 ≤ (i 1).val ∧ (i 1).val < win0_4.index _ (1 : Fin 2) * 128 + 128; rw [e1]; omega

theorem cover5 (i : S160x128.Idx) : ∃ t : Fin cfg0.N, (cfg0.win 5).flush t = true ∧ i ∈ ((cfg0.win 5).blk t).view.set := by
  have hi0 : (i 0).val < 160 := (i 0).isLt
  have hi1 : (i 1).val < 128 := (i 1).isLt
  have hN' := hN
  refine ⟨⟨(i 0).val / 8, by omega⟩, flush0_5 _, ?_⟩
  rw [mem_blk5]
  obtain ⟨-, -, -, -, -, -, -, -, -, -, e0, e1, -⟩ := idx_facts ⟨(i 0).val / 8, by omega⟩
  intro a
  match a with
  | ⟨0, _⟩ => show win0_5.index _ (0 : Fin 2) * 8 ≤ (i 0).val ∧ (i 0).val < win0_5.index _ (0 : Fin 2) * 8 + 8; rw [e0]; show (i 0).val / 8 * 8 ≤ (i 0).val ∧ (i 0).val < (i 0).val / 8 * 8 + 8; omega
  | ⟨1, _⟩ => show win0_5.index _ (1 : Fin 2) * 128 ≤ (i 1).val ∧ (i 1).val < win0_5.index _ (1 : Fin 2) * 128 + 128; rw [e1]; omega

theorem cover6 (i : S160x128.Idx) : ∃ t : Fin cfg0.N, (cfg0.win 6).flush t = true ∧ i ∈ ((cfg0.win 6).blk t).view.set := by
  have hi0 : (i 0).val < 160 := (i 0).isLt
  have hi1 : (i 1).val < 128 := (i 1).isLt
  have hN' := hN
  refine ⟨⟨(i 0).val / 8, by omega⟩, flush0_6 _, ?_⟩
  rw [mem_blk6]
  obtain ⟨-, -, -, -, -, -, -, -, -, -, -, -, e0, e1⟩ := idx_facts ⟨(i 0).val / 8, by omega⟩
  intro a
  match a with
  | ⟨0, _⟩ => show win0_6.index _ (0 : Fin 2) * 8 ≤ (i 0).val ∧ (i 0).val < win0_6.index _ (0 : Fin 2) * 8 + 8; rw [e0]; show (i 0).val / 8 * 8 ≤ (i 0).val ∧ (i 0).val < (i 0).val / 8 * 8 + 8; omega
  | ⟨1, _⟩ => show win0_6.index _ (1 : Fin 2) * 128 ≤ (i 1).val ∧ (i 1).val < win0_6.index _ (1 : Fin 2) * 128 + 128; rw [e1]; omega

/-- THE THREE ARRAYS the first region leaves: the whole first layer, the partial sums and the partial sums of squares. -/
theorem final4 (c : Dev nD) : (dat0 V c).arrAt 4 cfg0.N = ofFn2 (H V c) :=
  (dat0 V c).arrAt_eq_of_cover 4 (ofFn2 (H V c)) (fun t _ => flushed4 V c t) cover4
theorem final5 (c : Dev nD) : (dat0 V c).arrAt 5 cfg0.N = ofFn2 (P5 V c) :=
  (dat0 V c).arrAt_eq_of_cover 5 (ofFn2 (P5 V c)) (fun t _ => flushed5 V c t) cover5
theorem final6 (c : Dev nD) : (dat0 V c).arrAt 6 cfg0.N = ofFn2 (P6 V c) :=
  (dat0 V c).arrAt_eq_of_cover 6 (ofFn2 (P6 V c)) (fun t _ => flushed6 V c t) cover6

end Cert.GinBn.K0

end
-- ==== Proof.KRegion1.lean ====
/-
  The second kernel region, read as values.

  The region cuts the 100000 rows into 20 tiles of 5000. At tile t its body normalises the tile of the first layer's
  output with the mean and variance rows, scales, shifts and rectifies it, applies the second linear layer and
  rectifies twice, and applies the output layer: rows t · 5000 … of the result, which it writes back as the tile of
  the result array. The 20 blocks tile the array, so after the region the result array is, entry by entry, the model
  (normalisation and perceptron) of the nine arrays the region reads (Out).
-/
import proofs.«148175_j44744969290572_2_alg».proof.Proof.Gen.KernelIdeal.Frame
import proofs.«148175_j44744969290572_2_alg».proof.Proof.Spec
import proofs.«148175_j44744969290572_2_alg».proof.Proof.Payloads
import Idealize.ShloMosaic.Lib.Pipeline.Value
import Idealize.ShloMosaic.Lib.ValueIdx
import Idealize.ShloMosaic.PureOps.Ideal.Laws

set_option maxRecDepth 16384

noncomputable section

open scoped BigOperators

namespace Cert.GinBn.K1

open Cert.GinBn Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A one-row array as a function of its column. -/
def row {b : Nat} (x : (⟨2, ![1, b]⟩ : Shape).Idx → EReal) : Fin b → EReal := fun j => x (ix2 0 j)

/-- A matrix stored transposed, as a function of (output feature, input feature). -/
def matT {a b : Nat} (x : (⟨2, ![a, b]⟩ : Shape).Idx → EReal) : Fin b → Fin a → EReal := fun k j => x (ix2 j k)

/-- The result array over the arrays as the second region finds them: normalisation and the perceptron of the first
    layer's output, with the statistics, the scale and shift, and the two further layers' weights and biases. -/
def Out (c : Dev nD) : Fin 100000 → Fin 40 → EReal :=
  model (mat (V c main_v17_0)) (row (V c main_v38)) (row (V c main_v39)) (row (V c main_v34)) (row (V c main_v35))
    (matT (V c main_v31)) (row (V c main_v36)) (matT (V c main_v33)) (row (V c main_v37))

theorem hN : cfg1.N = 20 := N_1

/-- A grid point as a tile number. -/
def tl (t : Fin cfg1.N) : Fin 20 := ⟨t.val, by have h := t.isLt; have := hN; omega⟩

theorem hz : (![0, 0] : Fin 2 → Nat) = fun _ => 0 := funext fun a => by fin_cases a <;> rfl

theorem ofFn2_of_val {a b : Nat} (f : Fin a → Fin b → EReal) (i : (⟨2, ![a, b]⟩ : Shape).Idx) (r : Fin a) (q : Fin b)
    (h0 : (i 0).val = r.val) (h1 : (i 1).val = q.val) : ofFn2 f i = f r q :=
  congrArg₂ f (Fin.ext h0) (Fin.ext h1)

/-- The printed index maps over the grid: the two row-tiled windows' block row is the point, every other block index 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row p of a tile of the first layer's output is row (tile · 5000 + p) of the array. -/
theorem rd0 (c : Dev nD) (t : Fin cfg1.N) (p : Fin 5000) (k : Fin 128) :
    iblk1 V c 0 t (ix2 p k) = V c main_v17_0 (ix2 (tileRow (tl t) p) k) := by
  obtain ⟨e0, e1, -⟩ := idx_facts t
  show V c main_v17_0 (((cfg1.win 0).blk t).view.emb (ix2 p k)) = _
  refine congrArg (V c main_v17_0) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The whole-array windows: a block is the array. -/
theorem rd1 (c : Dev nD) (t : Fin cfg1.N) (j : Fin 128) : iblk1 V c 1 t (ix2 0 j) = V c main_v38 (ix2 0 j) := by
  obtain ⟨-, -, e0, e1, -⟩ := idx_facts t
  show V c main_v38 (((cfg1.win 1).blk t).view.emb (ix2 0 j)) = _
  refine congrArg (V c main_v38) (funext fun a => Fin.ext ?_)
  match a with
  | ⟨0, _⟩ => show win1_1.index t (0 : Fin 2) * 1 + 1 * 0 = 0; omega
  | ⟨1, _⟩ => show win1_1.index t (1 : Fin 2) * 128 + 1 * j.val = j.val; omega
theorem rd2 (c : Dev nD) (t : Fin cfg1.N) (j : Fin 128) : iblk1 V c 2 t (ix2 0 j) = V c main_v39 (ix2 0 j) := by
  obtain ⟨-, -, -, -, e0, e1, -⟩ := idx_facts t
  show V c main_v39 (((cfg1.win 2).blk t).view.emb (ix2 0 j)) = _
  refine congrArg (V c main_v39) (funext fun a => Fin.ext ?_)
  match a with
  | ⟨0, _⟩ => show win1_2.index t (0 : Fin 2) * 1 + 1 * 0 = 0; omega
  | ⟨1, _⟩ => show win1_2.index t (1 : Fin 2) * 128 + 1 * j.val = j.val; omega
theorem rd3 (c : Dev nD) (t : Fin cfg1.N) (j : Fin 128) : iblk1 V c 3 t (ix2 0 j) = V c main_v34 (ix2 0 j) := by
  obtain ⟨-, -, -, -, -, -, e0, e1, -⟩ := idx_facts t
  show V c main_v34 (((cfg1.win 3).blk t).view.emb (ix2 0 j)) = _
  refine congrArg (V c main_v34) (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega
theorem rd4 (c : Dev nD) (t : Fin cfg1.N) (j : Fin 128) : iblk1 V c 4 t (ix2 0 j) = V c main_v35 (ix2 0 j) := by
  obtain ⟨-, -, -, -, -, -, -, -, e0, e1, -⟩ := idx_facts t
  show V c main_v35 (((cfg1.win 4).blk t).view.emb (ix2 0 j)) = _
  refine congrArg (V c main_v35) (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega
theorem rd5 (c : Dev nD) (t : Fin cfg1.N) (j k : Fin 128) : iblk1 V c 5 t (ix2 j k) = V c main_v31 (ix2 j k) := by
  obtain ⟨-, -, -, -, -, -, -, -, -, -, e0, e1, -⟩ := idx_facts t
  show V c main_v31 (((cfg1.win 5).blk t).view.emb (ix2 j k)) = _
  refine congrArg (V c main_v31) (funext fun a => Fin.ext ?_)
  match a with
  | ⟨0, _⟩ => show win1_5.index t (0 : Fin 2) * 128 + 1 * j.val = j.val; omega
  | ⟨1, _⟩ => show win1_5.index t (1 : Fin 2) * 128 + 1 * k.val = k.val; omega
theorem rd6 (c : Dev nD) (t : Fin cfg1.N) (j : Fin 128) : iblk1 V c 6 t (ix2 0 j) = V c main_v36 (ix2 0 j) := by
  obtain ⟨-, -, -, -, -, -, -, -, -, -, -, -, e0, e1, -⟩ := idx_facts t
  show V c main_v36 (((cfg1.win 6).blk t).view.emb (ix2 0 j)) = _
  refine congrArg (V c main_v36) (funext fun a => Fin.ext ?_)
  match a with
  | ⟨0, _⟩ => show win1_6.index t (0 : Fin 2) * 1 + 1 * 0 = 0; omega
  | ⟨1, _⟩ => show win1_6.index t (1 : Fin 2) * 128 + 1 * j.val = j.val; omega
theorem rd7 (c : Dev nD) (t : Fin cfg1.N) (k : Fin 128) (q : Fin 40) : iblk1 V c 7 t (ix2 k q) = V c main_v33 (ix2 k q) := by
  obtain ⟨-, -, -, -, -, -, -, -, -, -, -, -, -, -, e0, e1, -⟩ := idx_facts t
  show V c main_v33 (((cfg1.win 7).blk t).view.emb (ix2 k q)) = _
  refine congrArg (V c main_v33) (funext fun a => Fin.ext ?_)
  match a with
  | ⟨0, _⟩ => show win1_7.index t (0 : Fin 2) * 128 + 1 * k.val = k.val; omega
  | ⟨1, _⟩ => show win1_7.index t (1 : Fin 2) * 40 + 1 * q.val = q.val; omega
theorem rd8 (c : Dev nD) (t : Fin cfg1.N) (q : Fin 40) : iblk1 V c 8 t (ix2 0 q) = V c main_v37 (ix2 0 q) := by
  obtain ⟨-, -, -, -, -, -, -, -, -, -, -, -, -, -, -, -, e0, e1, -⟩ := idx_facts t
  show V c main_v37 (((cfg1.win 8).blk t).view.emb (ix2 0 q)) = _
  refine congrArg (V c main_v37) (funext fun a => Fin.ext ?_)
  match a with
  | ⟨0, _⟩ => show win1_8.index t (0 : Fin 2) * 1 + 1 * 0 = 0; omega
  | ⟨1, _⟩ => show win1_8.index t (1 : Fin 2) * 40 + 1 * q.val = q.val; omega

/-- WHAT POINT t WRITES BACK: rows t · 5000 … of the result. -/
theorem flushed9 (c : Dev nD) (t : Fin cfg1.N) :
    (dat1 V c).flushed 9 t = ((cfg1.win 9).blk t).view.read (Elt Ideal) (ofFn2 (Out V c)) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz,
    View.ld_unit_zero (S := S128x40) hz, View.ld_unit_zero (S := S1x40) hz]
  obtain ⟨-, -, -, -, -, -, -, -, -, -, -, -, -, -, -, -, -, -, e0, e1⟩ := idx_facts t
  funext y
  obtain ⟨p, q, rfl⟩ : ∃ (p : Fin 5000) (q : Fin 40), y = ix2 p q := ⟨y 0, y 1, eq_ix2 y⟩
  show k1_pay1 (F := Ideal) (k1_pay2 (F := Ideal) (iblk1 V c 0 t) (iblk1 V c 2 t) (iblk1 V c 1 t) (iblk1 V c 3 t) (iblk1 V c 4 t) (iblk1 V c 5 t) (iblk1 V c 6 t)) (iblk1 V c 7 t) (iblk1 V c 8 t) (ix2 p q)
    = ofFn2 (Out V c) (((cfg1.win 9).blk t).view.emb (ix2 p q))
  refine (Pay.pay1_2_apply _ _ _ _ _ _ _ _ _ p q).trans ?_
  refine Eq.trans ?_ (ofFn2_of_val (Out V c) _ (tileRow (tl t) p) q ?_ ?_).symm
  · unfold Out model outp hid bn Pay.hidK Pay.bnK mat row matT
    simp only [rd0 V c t, rd1 V c t, rd2 V c t, rd3 V c t, rd4 V c t, rd5 V c t, rd6 V c t, rd7 V c t, rd8 V c t]
  · show win1_9.index t (0 : Fin 2) * 5000 + 1 * p.val = t.val * 5000 + p.val; omega
  · show win1_9.index t (1 : Fin 2) * 40 + 1 * q.val = q.val; omega

theorem mem_blk9 (t : Fin cfg1.N) (i : S100000x40.Idx) :
    i ∈ ((cfg1.win 9).blk t).view.set ↔ ∀ a : Fin 2, win1_9.index t a * S5000x40.size a ≤ (i a).val ∧ (i a).val < win1_9.index t a * S5000x40.size a + S5000x40.size a := by
  show i ∈ ((View.whole main_v40).slice (win1_9.rect t)).set ↔ _
  rw [View.set_slice_whole, Rect.mem_set_unit]
  exact Iff.rfl

/-- Every row of the result is in the block of the point its tile is. -/
theorem cover9 (i : S100000x40.Idx) : ∃ t : Fin cfg1.N, (cfg1.win 9).flush t = true ∧ i ∈ ((cfg1.win 9).blk t).view.set := by
  have hi0 : (i 0).val < 100000 := (i 0).isLt
  have hi1 : (i 1).val < 40 := (i 1).isLt
  have hN' := hN
  refine ⟨⟨(i 0).val / 5000, by omega⟩, flush1_9 _, ?_⟩
  rw [mem_blk9]
  obtain ⟨-, -, -, -, -, -, -, -, -, -, -, -, -, -, -, -, -, -, e0, e1⟩ := idx_facts ⟨(i 0).val / 5000, by omega⟩
  intro a
  match a with
  | ⟨0, _⟩ => show win1_9.index _ (0 : Fin 2) * 5000 ≤ (i 0).val ∧ (i 0).val < win1_9.index _ (0 : Fin 2) * 5000 + 5000; rw [e0]; show (i 0).val / 5000 * 5000 ≤ (i 0).val ∧ (i 0).val < (i 0).val / 5000 * 5000 + 5000; omega
  | ⟨1, _⟩ => show win1_9.index _ (1 : Fin 2) * 40 ≤ (i 1).val ∧ (i 1).val < win1_9.index _ (1 : Fin 2) * 40 + 40; rw [e1]; omega

/-- THE RESULT ARRAY the second region leaves. -/
theorem final9 (c : Dev nD) : (dat1 V c).arrAt 9 cfg1.N = ofFn2 (Out V c) :=
  (dat1 V c).arrAt_eq_of_cover 9 (ofFn2 (Out V c)) (fun t _ => flushed9 V c t) cover9

end Cert.GinBn.K1

end
-- ==== Proof.KRun.lean ====
/-
  The idealized kernel program's run with its RESULT named.

  The program is two kernel regions among three stretches of host operations. Its run from any launch memory
  terminates without a fault; every final state has the argument arrays as launched and the result array at what the
  second region's write-backs leave: the fold of the buffer contents through the five boundaries of the program
  (the launch, after the first host stretch, after the first region, after the second host stretch, after the
  second region), read at the result's buffer.
-/
import proofs.«148175_j44744969290572_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    of its buffer and the argument arrays as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

/-- The last boundary's contents of the result's buffer are what the second region's write-backs leave of its output
    window. -/
theorem W4_result (c : Dev nD) : W4 m ρ c (Proc.devRef .tc main_v40) = (dat1 (V3 m ρ) c).arrAt 9 cfg1.N :=
  W4_arr m ρ c 9

end Cert.KernelIdeal.ResultRun

end
-- ==== Proof.KHost.lean ====
/-
  The idealized kernel program's host side, and its result as the specification.

  Between the launch and the first region the host computes the aggregated features (the same gather and scatter the
  reference applies, carried as one function of the two arguments it reads), transposes the first weight matrix and
  lays the bias out as a row. Between the regions it sums each of the two arrays of partial sums over its 160 rows,
  divides by 8 and by the row count, and forms the variance as the mean of squares minus the squared mean: the tiled
  column statistics of the first layer's output; it transposes the two further weight matrices and lays the other
  vectors out as rows. Read through these, what the second region leaves of the result array is the specification's
  net with the tiled statistics, of the ten argument arrays.
-/
import proofs.«148175_j44744969290572_2_alg».proof.Proof.Gen.KernelIdeal.Frame
import proofs.«148175_j44744969290572_2_alg».proof.Proof.Gen.ReferenceIdeal.Read
import proofs.«148175_j44744969290572_2_alg».proof.Proof.Spec
import proofs.«148175_j44744969290572_2_alg».proof.Proof.KRegion0
import proofs.«148175_j44744969290572_2_alg».proof.Proof.KRegion1
import proofs.«148175_j44744969290572_2_alg».proof.Proof.KRun
import Idealize.ShloMosaic.Lib.StableHlo.Run
import Idealize.ShloMosaic.Lib.ValueLayout
import Idealize.ShloMosaic.PureOps.Ideal.Laws

set_option maxRecDepth 16384

noncomputable section

open scoped BigOperators

namespace Cert.GinBn.KHost

open Cert.GinBn Cert.KernelIdeal Cert.KernelIdeal.Gen
open Idealize.ShloMosaic Idealize.ShloMosaic.TcCoe Idealize.ShloMosaic.Tactic Idealize.ShloMosaic.ValueIdx Idealize.SL.Sem
open Idealize.ShloMosaic.StableHlo

variable (m : (ℓ : Loc nD τ sig) → Buf (Elt Ideal) ℓ) (ρ : Dev nD → PrngReg)

/-! ## What the first region finds -/

theorem V1_arg0 (c : Dev nD) : (V1 m ρ c main_arg0 : S100000x128.Idx → EReal) = m ((c : Thread nD τ).loc main_arg0) := by
  dsimp only [V1, W1, hostOps0]
  after_results

/-- The aggregated features are the reference's aggregation of the same two arguments. -/
theorem V1_v13 (c : Dev nD) : (V1 m ρ c main_v13 : S100000x128.Idx → EReal)
    = Cert.ReferenceIdeal.Read.val_main_v13 (F := Ideal) (m ((c : Thread nD τ).loc main_arg0)) (m ((c : Thread nD τ).loc main_arg1)) := by
  dsimp only [V1, W1, hostOps0]
  after_results
  rfl

theorem V1_v15 (c : Dev nD) : (V1 m ρ c main_v15 : S128x128.Idx → EReal)
    = transpose S128x128 [1, 0] (m ((c : Thread nD τ).loc main_arg2)) transposes_S128x128_S128x128_1_0 := by
  dsimp only [V1, W1, hostOps0]
  after_results
  rfl

theorem V1_v16 (c : Dev nD) : (V1 m ρ c main_v16 : S1x128.Idx → EReal)
    = shapeCast S1x128 (m ((c : Thread nD τ).loc main_arg3)) shapeCasts_S128_S1x128 := by
  dsimp only [V1, W1, hostOps0]
  after_results
  rfl

/-- The first layer over what the first region finds is the specification's first layer of the arguments. -/
theorem H_V1 (c : Dev nD) : K0.H (V1 m ρ) c
    = h1 (m ((c : Thread nD τ).loc main_arg0))
        (Cert.ReferenceIdeal.Read.val_main_v13 (F := Ideal) (m ((c : Thread nD τ).loc main_arg0)) (m ((c : Thread nD τ).loc main_arg1)))
        (m ((c : Thread nD τ).loc main_arg2)) (m ((c : Thread nD τ).loc main_arg3)) := by
  funext r j
  unfold K0.H K0.lin h1 lin1 mat vec
  have e3 : V1 m ρ c main_v16 (ix2 0 j) = m ((c : Thread nD τ).loc main_arg3) (ix1 j) := by
    rw [V1_v16]; exact shapeCast_a_1a_apply _ _ 0 j
  rw [e3]
  refine congrArg (· + _) (Finset.sum_congr rfl fun k _ => ?_)
  have e2 : V1 m ρ c main_v15 (ix2 k j) = m ((c : Thread nD τ).loc main_arg2) (ix2 j k) := by
    rw [V1_v15]; exact transpose_ix2_apply _ _ k j
  rw [e2, V1_arg0, V1_v13]

/-! ## What the first region leaves -/

theorem W2_v17_0 (c : Dev nD) : (W2 m ρ c (Proc.devRef .tc main_v17_0) : S100000x128.Idx → EReal) = ofFn2 (K0.H (V1 m ρ) c) :=
  (W2_arr m ρ c 4).trans (K0.final4 (V1 m ρ) c)
theorem W2_v17_1 (c : Dev nD) : (W2 m ρ c (Proc.devRef .tc main_v17_1) : S160x128.Idx → EReal) = ofFn2 (K0.P5 (V1 m ρ) c) :=
  (W2_arr m ρ c 5).trans (K0.final5 (V1 m ρ) c)
theorem W2_v17_2 (c : Dev nD) : (W2 m ρ c (Proc.devRef .tc main_v17_2) : S160x128.Idx → EReal) = ofFn2 (K0.P6 (V1 m ρ) c) :=
  (W2_arr m ρ c 6).trans (K0.final6 (V1 m ρ) c)

/-- The arguments the first region does not touch are as launched. -/
theorem W2_arg4 (c : Dev nD) : (W2 m ρ c (Proc.devRef .tc main_arg4) : S128.Idx → EReal) = m ((c : Thread nD τ).loc main_arg4) := by
  refine (W2_of_ne m ρ c main_arg4 (by decide)).trans ?_
  dsimp only [W1, hostOps0]
  after_results
theorem W2_arg5 (c : Dev nD) : (W2 m ρ c (Proc.devRef .tc main_arg5) : S128.Idx → EReal) = m ((c : Thread nD τ).loc main_arg5) := by
  refine (W2_of_ne m ρ c main_arg5 (by decide)).trans ?_
  dsimp only [W1, hostOps0]
  after_results
theorem W2_arg6 (c : Dev nD) : (W2 m ρ c (Proc.devRef .tc main_arg6) : S128x128.Idx → EReal) = m ((c : Thread nD τ).loc main_arg6) := by
  refine (W2_of_ne m ρ c main_arg6 (by decide)).trans ?_
  dsimp only [W1, hostOps0]
  after_results
theorem W2_arg7 (c : Dev nD) : (W2 m ρ c (Proc.devRef .tc main_arg7) : S128.Idx → EReal) = m ((c : Thread nD τ).loc main_arg7) := by
  refine (W2_of_ne m ρ c main_arg7 (by decide)).trans ?_
  dsimp only [W1, hostOps0]
  after_results
theorem W2_arg8 (c : Dev nD) : (W2 m ρ c (Proc.devRef .tc main_arg8) : S40x128.Idx → EReal) = m ((c : Thread nD τ).loc main_arg8) := by
  refine (W2_of_ne m ρ c main_arg8 (by decide)).trans ?_
  dsimp only [W1, hostOps0]
  after_results
theorem W2_arg9 (c : Dev nD) : (W2 m ρ c (Proc.devRef .tc main_arg9) : S40.Idx → EReal) = m ((c : Thread nD τ).loc main_arg9) := by
  refine (W2_of_ne m ρ c main_arg9 (by decide)).trans ?_
  dsimp only [W1, hostOps0]
  after_results

/-! ## The statistics the host takes from the partial sums -/

/-- An array of partial sums summed over its 160 rows, divided by 8 and by the row count. -/
def meanRow (P : S160x128.Idx → EReal) : FVec Ideal S128 .f32 :=
  Host.divf (F := Ideal)
    (Host.divf (F := Ideal) (Host.reduceAdd (F := Ideal) P (constant (F := Ideal) S_ .f32 0x00000000#32) reducesTo_S160x128_S128_d0 h_S_)
      (broadcastInDim S128 ![] bcast_S_S128 (constant (F := Ideal) S_ .f32 0x41000000#32)))
    (broadcastInDim S128 ![] bcast_S_S128 (constant (F := Ideal) S_ .f32 0x47C35000#32))

/-- The mean of squares minus the squared mean. -/
def varRow (P Q : S160x128.Idx → EReal) : FVec Ideal S128 .f32 :=
  subf (F := Ideal) (φ := .f32) (meanRow Q) (mulf (F := Ideal) (φ := .f32) (meanRow P) (meanRow P))

theorem reduce160_apply (P : S160x128.Idx → EReal) (j : Fin 128) :
    Host.reduceAdd (F := Ideal) P (constant (F := Ideal) S_ .f32 0x00000000#32) reducesTo_S160x128_S128_d0 h_S_ (ix1 j)
      = ∑ q : Fin 160, P (ix2 q j) := by
  simp only [Host.reduceAdd, Ideal.hostReduceAdd_def]
  rw [Ideal.hostReduceAdd_single reducesTo_S160x128_S128_d0 (by decide)]
  show Ideal.ofBits .f32 0x00000000#32 + _ = _
  rw [Ideal.ofBits_zero_f32, zero_add]
  refine Finset.sum_congr rfl fun q _ => ?_
  exact congrArg P (funext fun a => Fin.ext (by match a with | ⟨0, _⟩ => rfl | ⟨1, _⟩ => rfl))

theorem meanRow_apply (P : S160x128.Idx → EReal) (j : Fin 128) :
    meanRow P (ix1 j) = Ideal.div (Ideal.div (∑ q : Fin 160, P (ix2 q j)) c8) cN := by
  rw [← reduce160_apply P j]
  rfl

theorem varRow_apply (P Q : S160x128.Idx → EReal) (j : Fin 128) :
    varRow P Q (ix1 j) = meanRow Q (ix1 j) - meanRow P (ix1 j) * meanRow P (ix1 j) := rfl

/-! ## What the second region finds -/

theorem V3_v17_0 (c : Dev nD) : (V3 m ρ c main_v17_0 : S100000x128.Idx → EReal) = W2 m ρ c (Proc.devRef .tc main_v17_0) := by
  dsimp only [V3, W3, hostOps1]
  after_results

theorem V3_v38 (c : Dev nD) : (V3 m ρ c main_v38 : S1x128.Idx → EReal)
    = shapeCast S1x128 (meanRow (W2 m ρ c (Proc.devRef .tc main_v17_1))) shapeCasts_S128_S1x128 := by
  dsimp only [V3, W3, hostOps1]
  after_results
  rfl

set_option maxHeartbeats 4000000 in
theorem V3_v39 (c : Dev nD) : (V3 m ρ c main_v39 : S1x128.Idx → EReal)
    = shapeCast S1x128 (varRow (W2 m ρ c (Proc.devRef .tc main_v17_1)) (W2 m ρ c (Proc.devRef .tc main_v17_2))) shapeCasts_S128_S1x128 := by
  dsimp only [V3, W3, hostOps1]
  after_results
  rfl

theorem V3_v34 (c : Dev nD) : (V3 m ρ c main_v34 : S1x128.Idx → EReal)
    = shapeCast S1x128 (W2 m ρ c (Proc.devRef .tc main_arg4)) shapeCasts_S128_S1x128 := by
  dsimp only [V3, W3, hostOps1]
  after_results
  rfl
theorem V3_v35 (c : Dev nD) : (V3 m ρ c main_v35 : S1x128.Idx → EReal)
    = shapeCast S1x128 (W2 m ρ c (Proc.devRef .tc main_arg5)) shapeCasts_S128_S1x128 := by
  dsimp only [V3, W3, hostOps1]
  after_results
  rfl
theorem V3_v36 (c : Dev nD) : (V3 m ρ c main_v36 : S1x128.Idx → EReal)
    = shapeCast S1x128 (W2 m ρ c (Proc.devRef .tc main_arg7)) shapeCasts_S128_S1x128 := by
  dsimp only [V3, W3, hostOps1]
  after_results
  rfl
theorem V3_v37 (c : Dev nD) : (V3 m ρ c main_v37 : S1x40.Idx → EReal)
    = shapeCast S1x40 (W2 m ρ c (Proc.devRef .tc main_arg9)) shapeCasts_S40_S1x40 := by
  dsimp only [V3, W3, hostOps1]
  after_results
  rfl
theorem V3_v31 (c : Dev nD) : (V3 m ρ c main_v31 : S128x128.Idx → EReal)
    = transpose S128x128 [1, 0] (W2 m ρ c (Proc.devRef .tc main_arg6)) transposes_S128x128_S128x128_1_0 := by
  dsimp only [V3, W3, hostOps1]
  after_results
  rfl
theorem V3_v33 (c : Dev nD) : (V3 m ρ c main_v33 : S128x40.Idx → EReal)
    = transpose S128x40 [1, 0] (W2 m ρ c (Proc.devRef .tc main_arg8)) transposes_S40x128_S128x40_1_0 := by
  dsimp only [V3, W3, hostOps1]
  after_results
  rfl

/-! ## The result array is the specification's net with the tiled statistics -/

theorem mat_v17_0 (c : Dev nD) : mat (V3 m ρ c main_v17_0) = K0.H (V1 m ρ) c := by
  funext r j
  show V3 m ρ c main_v17_0 (ix2 r j) = _
  rw [V3_v17_0, W2_v17_0]
  rfl

theorem row_v38 (c : Dev nD) : K1.row (V3 m ρ c main_v38) = kMean (K0.H (V1 m ρ) c) := by
  funext j
  show V3 m ρ c main_v38 (ix2 0 j) = _
  rw [V3_v38]
  refine (shapeCast_a_1a_apply _ _ 0 j).trans ?_
  rw [meanRow_apply, W2_v17_1]
  rfl

theorem row_v39 (c : Dev nD) : K1.row (V3 m ρ c main_v39) = kVar (K0.H (V1 m ρ) c) := by
  funext j
  show V3 m ρ c main_v39 (ix2 0 j) = _
  rw [V3_v39]
  refine (shapeCast_a_1a_apply _ _ 0 j).trans ?_
  rw [varRow_apply, meanRow_apply, meanRow_apply, W2_v17_1, W2_v17_2]
  rfl

theorem row_v34 (c : Dev nD) : K1.row (V3 m ρ c main_v34) = vec (m ((c : Thread nD τ).loc main_arg4)) := by
  funext j
  show V3 m ρ c main_v34 (ix2 0 j) = _
  rw [V3_v34]
  refine (shapeCast_a_1a_apply _ _ 0 j).trans ?_
  rw [W2_arg4]; rfl
theorem row_v35 (c : Dev nD) : K1.row (V3 m ρ c main_v35) = vec (m ((c : Thread nD τ).loc main_arg5)) := by
  funext j
  show V3 m ρ c main_v35 (ix2 0 j) = _
  rw [V3_v35]
  refine (shapeCast_a_1a_apply _ _ 0 j).trans ?_
  rw [W2_arg5]; rfl
theorem row_v36 (c : Dev nD) : K1.row (V3 m ρ c main_v36) = vec (m ((c : Thread nD τ).loc main_arg7)) := by
  funext j
  show V3 m ρ c main_v36 (ix2 0 j) = _
  rw [V3_v36]
  refine (shapeCast_a_1a_apply _ _ 0 j).trans ?_
  rw [W2_arg7]; rfl
theorem row_v37 (c : Dev nD) : K1.row (V3 m ρ c main_v37) = vec (m ((c : Thread nD τ).loc main_arg9)) := by
  funext q
  show V3 m ρ c main_v37 (ix2 0 q) = _
  rw [V3_v37]
  refine (shapeCast_a_1a_apply _ _ 0 q).trans ?_
  rw [W2_arg9]; rfl
theorem matT_v31 (c : Dev nD) : K1.matT (V3 m ρ c main_v31) = mat (m ((c : Thread nD τ).loc main_arg6)) := by
  funext k j
  show V3 m ρ c main_v31 (ix2 j k) = _
  rw [V3_v31]
  refine (transpose_ix2_apply _ _ j k).trans ?_
  rw [W2_arg6]; rfl
theorem matT_v33 (c : Dev nD) : K1.matT (V3 m ρ c main_v33) = mat (m ((c : Thread nD τ).loc main_arg8)) := by
  funext q k
  show V3 m ρ c main_v33 (ix2 k q) = _
  rw [V3_v33]
  refine (transpose_ix2_apply _ _ k q).trans ?_
  rw [W2_arg8]; rfl

/-- The result array as a function of the launch memory: the net with the tiled statistics, of the ten arguments. -/
def netK (c : Dev nD) : Buf (Elt Ideal) ((c.tc : Thread nD τ).loc main_v40) :=
  net kMean kVar (m ((c : Thread nD τ).loc main_arg0))
    (Cert.ReferenceIdeal.Read.val_main_v13 (F := Ideal) (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

theorem result_eq (c : Dev nD) : W4 m ρ c (Proc.devRef .tc main_v40) = netK m c := by
  rw [Cert.KernelIdeal.ResultRun.W4_result, K1.final9]
  unfold K1.Out netK net
  rw [mat_v17_0, row_v38, row_v39, row_v34, row_v35, matT_v31, row_v36, matT_v33, row_v37, H_V1]

/-- THE KERNEL PROGRAM'S RUN: it terminates, nothing faulting, with the result array at the net with the tiled
    statistics and the arguments as launched. -/
theorem kernel_run : θ_run defs (onTc (τ := τ) (main (F := Ideal))) ⟨m, fun _ => 0, ρ⟩ (fun r => ∀ c : Dev nD,
      r.2.mem ((c.tc : Thread nD τ).loc main_v40) = netK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩)
    (Cert.KernelIdeal.ResultRun.run_result (F := Ideal) m ρ)

end Cert.GinBn.KHost

end
-- ==== Proof.lean ====
/-
  The certificate: a graph layer (neighbour aggregation, a linear layer, column normalisation over all rows, a small
  perceptron) computed by two tiled kernel regions, against its plain array reference, as extended reals.

  Both programs aggregate with the same gather and scatter of the same two arguments, so the aggregated features are
  one function agg of them on both sides. Both then compute net of the ten arguments and agg (Spec.lean), differing
  only in how the column statistics of the first layer's output are taken: the reference as the mean, and the mean of
  squared deviations, over all 100000 rows; the kernel from per-tile partial sums and partial sums of squares, with
  the variance as the mean of squares minus the squared mean. The two forms agree on real numbers (Stats.lean), and
  under the precondition the first layer's output is real: the features, the first weights and the first bias are
  finite, the aggregation of finite features is a finite sum of them, and sums and products of reals are real
  (Finite.lean). The kernel program's run with its result named is KRun.lean, its result as the net with the tiled
  statistics KRegion0.lean, KRegion1.lean and KHost.lean over the two bodies' arithmetic (Payloads.lean); the
  reference's result as the net with the textbook statistics is RefValue.lean over its generated run.
-/
import proofs.«148175_j44744969290572_2_alg».proof.Defs
import proofs.«148175_j44744969290572_2_alg».proof.Proof.Gen.Kernel
import proofs.«148175_j44744969290572_2_alg».proof.Proof.Gen.Kernel.Skeleton
import proofs.«148175_j44744969290572_2_alg».proof.Proof.Gen.Kernel.Launch
import proofs.«148175_j44744969290572_2_alg».proof.Proof.Gen.Kernel.Points
import proofs.«148175_j44744969290572_2_alg».proof.Proof.Gen.Kernel.Frame
import proofs.«148175_j44744969290572_2_alg».proof.Proof.Gen.KernelIdeal
import proofs.«148175_j44744969290572_2_alg».proof.Proof.Gen.KernelIdeal.Skeleton
import proofs.«148175_j44744969290572_2_alg».proof.Proof.Gen.KernelIdeal.Launch
import proofs.«148175_j44744969290572_2_alg».proof.Proof.Gen.KernelIdeal.Points
import proofs.«148175_j44744969290572_2_alg».proof.Proof.Gen.KernelIdeal.Frame
import proofs.«148175_j44744969290572_2_alg».proof.Proof.Gen.ReferenceIdeal
import proofs.«148175_j44744969290572_2_alg».proof.Proof.Gen.Pre_finite_inputs
import proofs.«148175_j44744969290572_2_alg».proof.Proof.Gen.ReferenceIdeal.Run
import proofs.«148175_j44744969290572_2_alg».proof.Proof.Gen.ReferenceIdeal.Read
import proofs.«148175_j44744969290572_2_alg».proof.Proof.Spec
import proofs.«148175_j44744969290572_2_alg».proof.Proof.Stats
import proofs.«148175_j44744969290572_2_alg».proof.Proof.Finite
import proofs.«148175_j44744969290572_2_alg».proof.Proof.RefValue
import proofs.«148175_j44744969290572_2_alg».proof.Proof.KHost
import Idealize.ShloMosaic.Adequacy
import Idealize.ShloMosaic.Init

noncomputable section

namespace Cert.Proof

open Idealize.ShloMosaic Idealize.SL.Sem Cert.GinBn

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read over the extended reals. -/
theorem preserves : Cert.preserves_Kernel_KernelIdeal := trivial

/-- From memories agreeing on the arguments both programs run; the kernel's result is the net with the tiled
    statistics, the reference's the net with the textbook statistics, of the same arguments and the same
    aggregation; under the precondition the first layer's output is real, where the two statistics agree. -/
theorem algebraic : Cert.algebraic_KernelIdeal_ReferenceIdeal := by
  intro m ρ m' ρ' hpre hagree
  refine ⟨fun c => KHost.netK m c, KHost.kernel_run m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v57_eq, Cert.GinBn.Ref.ref_eq, a0, a1, a2, a3, a4, a5, a6, a7, a8, a9]
  obtain ⟨r0, r2, r3⟩ := Cert.GinBn.Fin.real_of_pre _ _ _ _ _ _ _ _ _ _ (hpre c)
  exact (net_eq _ _ _ _ _ _ _ _ _ _ (Cert.GinBn.Fin.h1_real _ _ _ _ r0 (Cert.GinBn.Fin.agg_real _ _ r0) r2 r3)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
